-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S2 .f32) (main_v33 : IVec S_ 1) : IVec S_ 1 :=
  let main_v34 : FVec F S2 .f32 := Host.absf main_arg8
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S128x2 .f32) (main_arg8 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x2 .f32 := Host.absf main_arg7
  let main_cst_10 : FVec F S_ .f32 := constant S_ .f32 0x7F800000#32
  let main_v30 : FVec F S128x2 .f32 := broadcastInDim S128x2 ![] bcast_S_S128x2 main_cst_10
  let main_v31 : IVec S128x2 1 := cmpf .olt main_v29 main_v30
  let main_c_11 : IVec S_ 1 := constantI S_ 1 1#1
  let main_v32 : IVec S_ 1 := (fun x v => Host.reduce IntOp.andi x v reducesTo_S128x2_S_d0_1 h_S_) main_v31 main_c_11
  let main_v33 : IVec S_ 1 := andi main_v28 main_v32
  fn_part2 (F := F) main_arg8 main_v33

def fn {F : FTy → Type} [FloatOps F] (main_arg0 : FVec F S50000x128 .f32) (main_arg1 : IVec S2x800000 32) (main_arg2 : FVec F S800000 .f32) (main_arg3 : FVec F S128x128 .f32) (main_arg4 : FVec F S128 .f32) (main_arg5 : FVec F S128x128 .f32) (main_arg6 : FVec F S128 .f32) (main_arg7 : FVec F S128x2 .f32) (main_arg8 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S5000x128 : Shape := ⟨2, ![5000, 128]⟩
abbrev S800000x128 : Shape := ⟨2, ![800000, 128]⟩
abbrev S50000x1 : Shape := ⟨2, ![50000, 1]⟩
abbrev S1x128 : Shape := ⟨2, ![1, 128]⟩
abbrev S50000x2 : Shape := ⟨2, ![50000, 2]⟩
abbrev S5000x2 : Shape := ⟨2, ![5000, 2]⟩
abbrev S800000x2 : Shape := ⟨2, ![800000, 2]⟩
abbrev S1x2 : Shape := ⟨2, ![1, 2]⟩

abbrev nBuf : Space → Nat
  | .hbm => 115
  | .vmem => 36
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x2, .f32⟩
  | .hbm, ⟨8, _⟩ => ⟨S2, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000, .f32⟩
  | .hbm, ⟨37, _⟩ => ⟨S800000, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000, .f32⟩
  | .hbm, ⟨47, _⟩ => ⟨S800000, .f32⟩
  | .hbm, ⟨48, _⟩ => ⟨S50000, .f32⟩
  | .hbm, ⟨49, _⟩ => ⟨S50000x128, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x128, .f32⟩
  | .hbm, ⟨59, _⟩ => ⟨S800000x1, .f32⟩
  | .hbm, ⟨60, _⟩ => ⟨S800000x128, .f32⟩
  | .hbm, ⟨61, _⟩ => ⟨S800000x128, .f32⟩
  | .hbm, ⟨62, _⟩ => ⟨S_, .f32⟩
  | .hbm, ⟨63, _⟩ => ⟨S50000x128, .f32⟩
  | .hbm, ⟨64, _⟩ => ⟨S800000x1, .i32⟩
  | .hbm, ⟨65, _⟩ => ⟨S50000x128, .f32⟩
  | .hbm, ⟨66, _⟩ => ⟨S50000x1, .f32⟩
  | .hbm, ⟨67, _⟩ => ⟨S50000x128, .f32⟩
  | .hbm, ⟨68, _⟩ => ⟨S50000x128, .f32⟩
  | .hbm, ⟨69, _⟩ => ⟨S1x128, .f32⟩
  | .hbm, ⟨70, _⟩ => ⟨S50000x128, .f32⟩
  | .hbm, ⟨71, _⟩ => ⟨S50000x128, .f32⟩
  | .hbm, ⟨72, _⟩ => ⟨S_, .i32⟩
  | .hbm, ⟨73, _⟩ => ⟨S800000, .i32⟩
  | .hbm, ⟨74, _⟩ => ⟨S800000, .i1⟩
  | .hbm, ⟨75, _⟩ => ⟨S_, .i32⟩
  | .hbm, ⟨76, _⟩ => ⟨S800000, .i32⟩
  | .hbm, ⟨77, _⟩ => ⟨S800000, .i32⟩
  | .hbm, ⟨78, _⟩ => ⟨S800000, .i32⟩
  | .hbm, ⟨79, _⟩ => ⟨S800000x1, .i32⟩
  | .hbm, ⟨80, _⟩ => ⟨S800000x128, .f32⟩
  | .hbm, ⟨81, _⟩ => ⟨S800000x1, .f32⟩
  | .hbm, ⟨82, _⟩ => ⟨S800000x128, .f32⟩
  | .hbm, ⟨83, _⟩ => ⟨S800000x128, .f32⟩
  | .hbm, ⟨84, _⟩ => ⟨S_, .f32⟩
  | .hbm, ⟨85, _⟩ => ⟨S50000x128, .f32⟩
  | .hbm, ⟨86, _⟩ => ⟨S800000x1, .i32⟩
  | .hbm, ⟨87, _⟩ => ⟨S50000x128, .f32⟩
  | .hbm, ⟨88, _⟩ => ⟨S50000x1, .f32⟩
  | .hbm, ⟨89, _⟩ => ⟨S50000x128, .f32⟩
  | .hbm, ⟨90, _⟩ => ⟨S50000x128, .f32⟩
  | .hbm, ⟨91, _⟩ => ⟨S1x128, .f32⟩
  | .hbm, ⟨92, _⟩ => ⟨S50000x128, .f32⟩
  | .hbm, ⟨93, _⟩ => ⟨S50000x2, .f32⟩
  | .hbm, ⟨94, _⟩ => ⟨S_, .i32⟩
  | .hbm, ⟨95, _⟩ => ⟨S800000, .i32⟩
  | .hbm, ⟨96, _⟩ => ⟨S800000, .i1⟩
  | .hbm, ⟨97, _⟩ => ⟨S_, .i32⟩
  | .hbm, ⟨98, _⟩ => ⟨S800000, .i32⟩
  | .hbm, ⟨99, _⟩ => ⟨S800000, .i32⟩
  | .hbm, ⟨100, _⟩ => ⟨S800000, .i32⟩
  | .hbm, ⟨101, _⟩ => ⟨S800000x1, .i32⟩
  | .hbm, ⟨102, _⟩ => ⟨S800000x2, .f32⟩
  | .hbm, ⟨103, _⟩ => ⟨S800000x1, .f32⟩
  | .hbm, ⟨104, _⟩ => ⟨S800000x2, .f32⟩
  | .hbm, ⟨105, _⟩ => ⟨S800000x2, .f32⟩
  | .hbm, ⟨106, _⟩ => ⟨S_, .f32⟩
  | .hbm, ⟨107, _⟩ => ⟨S50000x2, .f32⟩
  | .hbm, ⟨108, _⟩ => ⟨S800000x1, .i32⟩
  | .hbm, ⟨109, _⟩ => ⟨S50000x2, .f32⟩
  | .hbm, ⟨110, _⟩ => ⟨S50000x1, .f32⟩
  | .hbm, ⟨111, _⟩ => ⟨S50000x2, .f32⟩
  | .hbm, ⟨112, _⟩ => ⟨S50000x2, .f32⟩
  | .hbm, ⟨113, _⟩ => ⟨S1x2, .f32⟩
  | .hbm, ⟨114, _⟩ => ⟨S50000x2, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x2, .f32⟩
  | .local _ .vmem, ⟨27, _⟩ => ⟨S5000x2, .f32⟩
  | .local _ .vmem, ⟨28, _⟩ => ⟨S5000x2, .f32⟩
  | .local _ .vmem, ⟨29, _⟩ => ⟨S5000x2, .f32⟩
  | .local _ .vmem, ⟨30, _⟩ => ⟨S5000x2, .f32⟩
  | .local _ .vmem, ⟨31, _⟩ => ⟨S5000x2, .f32⟩
  | .local _ .vmem, ⟨32, _⟩ => ⟨S5000x2, .f32⟩
  | .local _ .vmem, ⟨33, _⟩ => ⟨S1x2, .f32⟩
  | .local _ .vmem, ⟨34, _⟩ => ⟨S5000x2, .f32⟩
  | .local _ .vmem, ⟨35, _⟩ => ⟨S5000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_c_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_9 : Ref sig .tc := ⟨.hbm, 72, rfl⟩
abbrev main_v50 : Ref sig .tc := ⟨.hbm, 73, rfl⟩
abbrev main_v51 : Ref sig .tc := ⟨.hbm, 74, rfl⟩
abbrev main_c_10 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_11 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_c_12 : Ref sig .tc := ⟨.hbm, 94, rfl⟩
abbrev main_v69 : Ref sig .tc := ⟨.hbm, 95, rfl⟩
abbrev main_v70 : Ref sig .tc := ⟨.hbm, 96, rfl⟩
abbrev main_c_13 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_14 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg1_1 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem1_1 : DmaSem sig := 32
abbrev cc5_sem2_0 : DmaSem sig := 33
abbrev cc5_sem3_0 : DmaSem sig := 34
abbrev cc5_sem3_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x2 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x2 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x2 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x2 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x2 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x2 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x2_S128x2_0_0 : ∀ a, (![0, 0] : Fin 2 → Nat) a + S128x2.size a ≤ S128x2.size a
  h_S128x2 : 0 < S128x2.numel
  inb_S5000x2_S5000x2_0_0 : ∀ a, (![0, 0] : Fin 2 → Nat) a + S5000x2.size a ≤ S5000x2.size a
  h_S5000x2 : 0 < S5000x2.numel
  bcast_S800000x1_S800000x2_0_1 : S800000x1.BroadcastsInDim S800000x2 (![0, 1] : Fin 2 → Fin S800000x2.rank)
  bcast_S_S50000x2 : S_.BroadcastsInDim S50000x2 (![] : Fin 0 → Fin S50000x2.rank)
  bcast_S50000x1_S50000x2_0_1 : S50000x1.BroadcastsInDim S50000x2 (![0, 1] : Fin 2 → Fin S50000x2.rank)
  shapeCasts_S2_S1x2 : S2.ShapeCasts S1x2
  shapeCasts_S5000x2_S5000x2 : S5000x2.ShapeCasts S5000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x2_S5000x2_1_0_0_1_n_n_wf : DotDims.WF S5000x128 S128x2 S5000x2 [1] [0] [0] [1] [] []
  gather_S50000x2_S800000x1_S800000x2_1_0_n_n_0_1_12_wf : GatherDims.WF S50000x2 S800000x1 S800000x2 [1] [0] [] [0] [] 1 ![1, 2]
  scatter_S50000x2_S800000x1_S800000x2_1_0_0_1_wf : ScatterDims.WF S50000x2 S800000x1 S800000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x2.size a ≤ S128x2.size a
  hwx4_1 : ∀ i : grid4.Coords, EltTy.bits .f32 = 32 ∨ (Rect.block (s := S128x2) S128x2.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x2.size a ≤ S50000x2.size a
  hwx4_2 : ∀ i : grid4.Coords, EltTy.bits .f32 = 32 ∨ (Rect.block (s := S50000x2) S5000x2.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x2.size a ≤ S50000x2.size a
  hwx5_0 : ∀ i : grid5.Coords, EltTy.bits .f32 = 32 ∨ (Rect.block (s := S50000x2) S5000x2.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x2.size a ≤ S50000x2.size a
  hwx5_1 : ∀ i : grid5.Coords, EltTy.bits .f32 = 32 ∨ (Rect.block (s := S50000x2) S5000x2.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x2.size a ≤ S1x2.size a
  hwx5_2 : ∀ i : grid5.Coords, EltTy.bits .f32 = 32 ∨ (Rect.block (s := S1x2) S1x2.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x2.size a ≤ S50000x2.size a
  hwx5_3 : ∀ i : grid5.Coords, EltTy.bits .f32 = 32 ∨ (Rect.block (s := S50000x2) S5000x2.size (cc5_transform_3 i) (hinb5_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf
def gather_S50000x2_S800000x1_S800000x2_1_0_n_n_0_1_12 : GatherDims S50000x2 S800000x1 S800000x2 where
  offsetDims := [1]
  collapsedSliceDims := [0]
  operandBatchingDims := []
  startIndicesBatchingDims := []
  startIndexMap := [0]
  indexVectorDim := 1
  sliceSizes := ![1, 2]
  wf := gather_S50000x2_S800000x1_S800000x2_1_0_n_n_0_1_12_wf
def scatter_S50000x2_S800000x1_S800000x2_1_0_0_1 : ScatterDims S50000x2 S800000x1 S800000x2 where
  updateWindowDims := [1]
  insertedWindowDims := [0]
  scatterDimsToOperandDims := [0]
  indexVectorDim := 1
  wf := scatter_S50000x2_S800000x1_S800000x2_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v48) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v62) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v65) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v66) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v67) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v67) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x2.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v68) S5000x2.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v81) S5000x2.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v84) S5000x2.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v85) S1x2.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v86) S5000x2.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x2 : Shape := ⟨2, ![50000, 2]⟩
abbrev S800000x2 : Shape := ⟨2, ![800000, 2]⟩
abbrev S1x2 : Shape := ⟨2, ![1, 2]⟩

abbrev nBuf : Space → Nat
  | .hbm => 127
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x2, .f32⟩
  | .hbm, ⟨8, _⟩ => ⟨S2, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000, .f32⟩
  | .hbm, ⟨37, _⟩ => ⟨S800000, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000, .f32⟩
  | .hbm, ⟨47, _⟩ => ⟨S800000, .f32⟩
  | .hbm, ⟨48, _⟩ => ⟨S50000, .f32⟩
  | .hbm, ⟨49, _⟩ => ⟨S50000x128, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x128, .f32⟩
  | .hbm, ⟨59, _⟩ => ⟨S800000x1, .f32⟩
  | .hbm, ⟨60, _⟩ => ⟨S800000x128, .f32⟩
  | .hbm, ⟨61, _⟩ => ⟨S800000x128, .f32⟩
  | .hbm, ⟨62, _⟩ => ⟨S_, .f32⟩
  | .hbm, ⟨63, _⟩ => ⟨S50000x128, .f32⟩
  | .hbm, ⟨64, _⟩ => ⟨S800000x1, .i32⟩
  | .hbm, ⟨65, _⟩ => ⟨S50000x128, .f32⟩
  | .hbm, ⟨66, _⟩ => ⟨S50000x1, .f32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S1x128, .f32⟩
  | .hbm, ⟨71, _⟩ => ⟨S50000x128, .f32⟩
  | .hbm, ⟨72, _⟩ => ⟨S50000x128, .f32⟩
  | .hbm, ⟨73, _⟩ => ⟨S_, .f32⟩
  | .hbm, ⟨74, _⟩ => ⟨S50000x128, .f32⟩
  | .hbm, ⟨75, _⟩ => ⟨S50000x128, .f32⟩
  | .hbm, ⟨76, _⟩ => ⟨S50000x128, .f32⟩
  | .hbm, ⟨77, _⟩ => ⟨S_, .i32⟩
  | .hbm, ⟨78, _⟩ => ⟨S800000, .i32⟩
  | .hbm, ⟨79, _⟩ => ⟨S800000, .i1⟩
  | .hbm, ⟨80, _⟩ => ⟨S_, .i32⟩
  | .hbm, ⟨81, _⟩ => ⟨S800000, .i32⟩
  | .hbm, ⟨82, _⟩ => ⟨S800000, .i32⟩
  | .hbm, ⟨83, _⟩ => ⟨S800000, .i32⟩
  | .hbm, ⟨84, _⟩ => ⟨S800000x1, .i32⟩
  | .hbm, ⟨85, _⟩ => ⟨S800000x128, .f32⟩
  | .hbm, ⟨86, _⟩ => ⟨S800000x1, .f32⟩
  | .hbm, ⟨87, _⟩ => ⟨S800000x128, .f32⟩
  | .hbm, ⟨88, _⟩ => ⟨S800000x128, .f32⟩
  | .hbm, ⟨89, _⟩ => ⟨S_, .f32⟩
  | .hbm, ⟨90, _⟩ => ⟨S50000x128, .f32⟩
  | .hbm, ⟨91, _⟩ => ⟨S800000x1, .i32⟩
  | .hbm, ⟨92, _⟩ => ⟨S50000x128, .f32⟩
  | .hbm, ⟨93, _⟩ => ⟨S50000x1, .f32⟩
  | .hbm, ⟨94, _⟩ => ⟨S50000x128, .f32⟩
  | .hbm, ⟨95, _⟩ => ⟨S50000x128, .f32⟩
  | .hbm, ⟨96, _⟩ => ⟨S50000x128, .f32⟩
  | .hbm, ⟨97, _⟩ => ⟨S1x128, .f32⟩
  | .hbm, ⟨98, _⟩ => ⟨S50000x128, .f32⟩
  | .hbm, ⟨99, _⟩ => ⟨S50000x128, .f32⟩
  | .hbm, ⟨100, _⟩ => ⟨S_, .f32⟩
  | .hbm, ⟨101, _⟩ => ⟨S50000x128, .f32⟩
  | .hbm, ⟨102, _⟩ => ⟨S50000x128, .f32⟩
  | .hbm, ⟨103, _⟩ => ⟨S50000x2, .f32⟩
  | .hbm, ⟨104, _⟩ => ⟨S_, .i32⟩
  | .hbm, ⟨105, _⟩ => ⟨S800000, .i32⟩
  | .hbm, ⟨106, _⟩ => ⟨S800000, .i1⟩
  | .hbm, ⟨107, _⟩ => ⟨S_, .i32⟩
  | .hbm, ⟨108, _⟩ => ⟨S800000, .i32⟩
  | .hbm, ⟨109, _⟩ => ⟨S800000, .i32⟩
  | .hbm, ⟨110, _⟩ => ⟨S800000, .i32⟩
  | .hbm, ⟨111, _⟩ => ⟨S800000x1, .i32⟩
  | .hbm, ⟨112, _⟩ => ⟨S800000x2, .f32⟩
  | .hbm, ⟨113, _⟩ => ⟨S800000x1, .f32⟩
  | .hbm, ⟨114, _⟩ => ⟨S800000x2, .f32⟩
  | .hbm, ⟨115, _⟩ => ⟨S800000x2, .f32⟩
  | .hbm, ⟨116, _⟩ => ⟨S_, .f32⟩
  | .hbm, ⟨117, _⟩ => ⟨S50000x2, .f32⟩
  | .hbm, ⟨118, _⟩ => ⟨S800000x1, .i32⟩
  | .hbm, ⟨119, _⟩ => ⟨S50000x2, .f32⟩
  | .hbm, ⟨120, _⟩ => ⟨S50000x1, .f32⟩
  | .hbm, ⟨121, _⟩ => ⟨S50000x2, .f32⟩
  | .hbm, ⟨122, _⟩ => ⟨S50000x2, .f32⟩
  | .hbm, ⟨123, _⟩ => ⟨S50000x2, .f32⟩
  | .hbm, ⟨124, _⟩ => ⟨S1x2, .f32⟩
  | .hbm, ⟨125, _⟩ => ⟨S50000x2, .f32⟩
  | .hbm, ⟨126, _⟩ => ⟨S50000x2, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_c_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_call1_cst : Ref sig .tc := ⟨.hbm, 73, rfl⟩
abbrev main_call1_v0 : Ref sig .tc := ⟨.hbm, 74, rfl⟩
abbrev main_v51 : Ref sig .tc := ⟨.hbm, 75, rfl⟩
abbrev main_v52 : Ref sig .tc := ⟨.hbm, 76, rfl⟩
abbrev main_c_9 : Ref sig .tc := ⟨.hbm, 77, rfl⟩
abbrev main_v53 : Ref sig .tc := ⟨.hbm, 78, rfl⟩
abbrev main_v54 : Ref sig .tc := ⟨.hbm, 79, rfl⟩
abbrev main_c_10 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_11 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_call2_cst : Ref sig .tc := ⟨.hbm, 100, rfl⟩
abbrev main_call2_v0 : Ref sig .tc := ⟨.hbm, 101, rfl⟩
abbrev main_v73 : Ref sig .tc := ⟨.hbm, 102, rfl⟩
abbrev main_v74 : Ref sig .tc := ⟨.hbm, 103, rfl⟩
abbrev main_c_12 : Ref sig .tc := ⟨.hbm, 104, rfl⟩
abbrev main_v75 : Ref sig .tc := ⟨.hbm, 105, rfl⟩
abbrev main_v76 : Ref sig .tc := ⟨.hbm, 106, rfl⟩
abbrev main_c_13 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_14 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x2_0_1 : S800000x1.BroadcastsInDim S800000x2 (![0, 1] : Fin 2 → Fin S800000x2.rank)
  bcast_S_S50000x2 : S_.BroadcastsInDim S50000x2 (![] : Fin 0 → Fin S50000x2.rank)
  bcast_S50000x1_S50000x2_0_1 : S50000x1.BroadcastsInDim S50000x2 (![0, 1] : Fin 2 → Fin S50000x2.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x2_S50000x2_1_0_0_1_n_n_wf : DotDims.WF S50000x128 S128x2 S50000x2 [1] [0] [0] [1] [] []
  gather_S50000x2_S800000x1_S800000x2_1_0_n_n_0_1_12_wf : GatherDims.WF S50000x2 S800000x1 S800000x2 [1] [0] [] [0] [] 1 ![1, 2]
  scatter_S50000x2_S800000x1_S800000x2_1_0_0_1_wf : ScatterDims.WF S50000x2 S800000x1 S800000x2 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf
def gather_S50000x2_S800000x1_S800000x2_1_0_n_n_0_1_12 : GatherDims S50000x2 S800000x1 S800000x2 where
  offsetDims := [1]
  collapsedSliceDims := [0]
  operandBatchingDims := []
  startIndicesBatchingDims := []
  startIndexMap := [0]
  indexVectorDim := 1
  sliceSizes := ![1, 2]
  wf := gather_S50000x2_S800000x1_S800000x2_1_0_n_n_0_1_12_wf
def scatter_S50000x2_S800000x1_S800000x2_1_0_0_1 : ScatterDims S50000x2 S800000x1 S800000x2 where
  updateWindowDims := [1]
  insertedWindowDims := [0]
  scatterDimsToOperandDims := [0]
  indexVectorDim := 1
  wf := scatter_S50000x2_S800000x1_S800000x2_1_0_0_1_wf

class Facts : Prop extends Facts₀ where

variable [Facts]
-- ==== Proof.GraphMix.lean ====
/-
  The edge side of one graph-convolution layer, as two functions of the projected node features.

  Every layer of the network sends each node's projected feature row along the edges: edge e carries the row of its
  source node src(e), scaled by the edge's normalised weight w(e), to its destination node dst(e), where the rows
  arriving are summed (`messages`).  Beside that each node keeps its own row scaled by its self-loop coefficient s(n)
  (`selfTerm`).  A negative source number counts from the end of the node list (50000 is added to it) before the row is
  fetched.  Both programs spell these two steps with the same host operations in the same order, so the steps are named
  here once, for feature rows of length 128 and of length 2, and nothing in the certificate ever opens them.
-/
import proofs.«172918_j24824910971032_1_alg».proof.Proof.Gen.ReferenceIdeal

noncomputable section

namespace Cert.GraphMix

open Idealize.ShloMosaic Cert.ReferenceIdeal Cert.ReferenceIdeal.Gen

variable {F : FTy → Type} [FloatOps F]

/-- The source numbers as the one-column index array the row fetch takes, negative numbers counted from the end. -/
def sourceColumn (src : (⟨S800000, .i32⟩ : BufTy).Contents (Elt F)) : (⟨S800000x1, .i32⟩ : BufTy).Contents (Elt F) :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- Rows of length 128: the weighted rows of the source nodes summed at the destination nodes. -/
def messages128 (src dst : (⟨S800000, .i32⟩ : BufTy).Contents (Elt F)) (w : (⟨S800000, .f32⟩ : BufTy).Contents (Elt F))
    (hw : (⟨S50000x128, .f32⟩ : BufTy).Contents (Elt F)) : (⟨S50000x128, .f32⟩ : BufTy).Contents (Elt F) :=
  Host.scatterAdd scatter_S50000x128_S800000x1_S800000x128_1_0_0_1
    (broadcastInDim S50000x128 ![] bcast_S_S50000x128 (constant (F := F) S_ .f32 0x00000000#32))
    (broadcastInDim S800000x1 ![0] bcast_S800000_S800000x1_0 dst)
    (mulf (Host.gather gather_S50000x128_S800000x1_S800000x128_1_0_n_n_0_1_1128 hw (sourceColumn src))
      (broadcastInDim S800000x128 ![0, 1] bcast_S800000x1_S800000x128_0_1
        (broadcastInDim S800000x1 ![0] bcast_S800000_S800000x1_0 w)))

/-- Rows of length 128: every node's own row scaled by its self-loop coefficient. -/
def selfTerm128 (s : (⟨S50000, .f32⟩ : BufTy).Contents (Elt F)) (hw : (⟨S50000x128, .f32⟩ : BufTy).Contents (Elt F)) :
    (⟨S50000x128, .f32⟩ : BufTy).Contents (Elt F) :=
  mulf hw (broadcastInDim S50000x128 ![0, 1] bcast_S50000x1_S50000x128_0_1
    (broadcastInDim S50000x1 ![0] bcast_S50000_S50000x1_0 s))

/-- Rows of length 2: the weighted rows of the source nodes summed at the destination nodes. -/
def messages2 (src dst : (⟨S800000, .i32⟩ : BufTy).Contents (Elt F)) (w : (⟨S800000, .f32⟩ : BufTy).Contents (Elt F))
    (hw : (⟨S50000x2, .f32⟩ : BufTy).Contents (Elt F)) : (⟨S50000x2, .f32⟩ : BufTy).Contents (Elt F) :=
  Host.scatterAdd scatter_S50000x2_S800000x1_S800000x2_1_0_0_1
    (broadcastInDim S50000x2 ![] bcast_S_S50000x2 (constant (F := F) S_ .f32 0x00000000#32))
    (broadcastInDim S800000x1 ![0] bcast_S800000_S800000x1_0 dst)
    (mulf (Host.gather gather_S50000x2_S800000x1_S800000x2_1_0_n_n_0_1_12 hw (sourceColumn src))
      (broadcastInDim S800000x2 ![0, 1] bcast_S800000x1_S800000x2_0_1
        (broadcastInDim S800000x1 ![0] bcast_S800000_S800000x1_0 w)))

/-- Rows of length 2: every node's own row scaled by its self-loop coefficient. -/
def selfTerm2 (s : (⟨S50000, .f32⟩ : BufTy).Contents (Elt F)) (hw : (⟨S50000x2, .f32⟩ : BufTy).Contents (Elt F)) :
    (⟨S50000x2, .f32⟩ : BufTy).Contents (Elt F) :=
  mulf hw (broadcastInDim S50000x2 ![0, 1] bcast_S50000x1_S50000x2_0_1
    (broadcastInDim S50000x1 ![0] bcast_S50000_S50000x1_0 s))

end Cert.GraphMix

end
-- ==== Proof.LibPlainDot.lean ====
/-
  A plain matrix product read at an index.

  For the dimension numbers of an ordinary `[M, K] × [K, N] → [M, N]` product (the left operand's axis 1 contracted with the
  right operand's axis 0, no batch axis), the contraction index is its one coordinate, and the operand indices at output
  index `(p, q)` and contraction coordinate `k` are `(p, k)` and `(k, q)`.  So at the extended reals both the host's
  `dot_general` and a `tpu.matmul` into a zero accumulator are `∑ k : Fin K, l (p, k) · r (k, q)`.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction sum of a plain product, re-indexed by the contracted coordinate. -/
theorem plain_contr_sum {M K N : Nat} (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hl : (DotDims.plain M K N).lhsIdx (ix2 p q) ((contrEquiv1 (DotDims.plain M K N) K rfl rfl).symm k) = ix2 p k := by
    funext a
    refine Fin.ext ?_
    match a with
    | ⟨0, _⟩ => rfl
    | ⟨1, _⟩ =>
      refine ((DotDims.plain M K N).lhsIdx_val_of_single (cl := (1 : Fin 2)) rfl (ix2 p q) _).trans ?_
      exact contrEquiv1_symm_val (DotDims.plain M K N) K rfl rfl k
  have hr : (DotDims.plain M K N).rhsIdx (ix2 p q) ((contrEquiv1 (DotDims.plain M K N) K rfl rfl).symm k) = ix2 k q := by
    funext a
    refine Fin.ext ?_
    match a with
    | ⟨0, _⟩ =>
      refine ((DotDims.plain M K N).rhsIdx_val_of_single (cr := (0 : Fin 2)) rfl (ix2 p q) _).trans ?_
      exact contrEquiv1_symm_val (DotDims.plain M K N) K rfl rfl k
    | ⟨1, _⟩ => rfl
  rw [hl, hr]

/-- The host's `dot_general` with plain dimension numbers, at an index, over the extended reals. -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_contr_sum l r p q)

/-- A `tpu.matmul` with plain dimension numbers into the zero accumulator, at an index, over the extended reals. -/
theorem matmul_plain_zero_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_contr_sum l r p q)

end Cert.Lib

end
-- ==== Proof.LibDenseLayers.lean ====
/-
  The dense pieces of a two-layer graph-convolution encoder and of its edge decoder, as index-by-index functions over
  the extended reals:

  * `project x w` — the feature projection `x · w`: entry `(n, f)` is `∑ k, x (n, k) · w (k, f)`;
  * `addRow a b` — the bias row `b` (shape `[1, N]`) added to every node's feature row;
  * `addRowClamp a b` — the same followed by the clamp at zero, `max (· ) 0`;
  * `rowDots u v` — one number per edge, the dot product `∑ k, u (e, k) · v (e, k)` of its two end points' features.

  The second half shows that the host operations a plain array program uses for these pieces — a `dot_general` with
  ordinary matrix-product dimension numbers, an addition of a twice-broadcast bias vector (clamped or not by a `maximum`
  with a broadcast zero), and a sum over the feature axis of an elementwise product — ARE these functions.  No law of
  arithmetic is needed beyond `0 + s = s`: the same sums and products appear on both sides, in the same order.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«172918_j24824910971032_1_alg».proof.Proof.LibPlainDot

noncomputable section

namespace Cert.Layers

open Idealize.ShloMosaic Idealize.ShloMosaic.ValueIdx

variable {M K N : Nat}

/-- The projection `x · w` of `M` feature rows of length `K` to length `N`. -/
def project (x : (⟨2, ![M, K]⟩ : Shape).Idx → EReal) (w : (⟨2, ![K, N]⟩ : Shape).Idx → EReal) :
    (⟨2, ![M, N]⟩ : Shape).Idx → EReal :=
  fun i => ∑ k : Fin K, x (ix2 (n0 := M) (i 0) k) * w (ix2 (n1 := N) k (i 1))

/-- The bias row `b` added to every row of `a`. -/
def addRow (a : (⟨2, ![M, N]⟩ : Shape).Idx → EReal) (b : (⟨2, ![1, N]⟩ : Shape).Idx → EReal) :
    (⟨2, ![M, N]⟩ : Shape).Idx → EReal :=
  fun i => a i + b (ix2 (n1 := N) (0 : Fin 1) (i 1))

/-- The bias row added to every row, then the clamp at zero. -/
def addRowClamp (a : (⟨2, ![M, N]⟩ : Shape).Idx → EReal) (b : (⟨2, ![1, N]⟩ : Shape).Idx → EReal) :
    (⟨2, ![M, N]⟩ : Shape).Idx → EReal :=
  fun i => max (a i + b (ix2 (n1 := N) (0 : Fin 1) (i 1))) 0

/-- Row by row, the dot product of `u`'s row with `v`'s. -/
def rowDots (u v : (⟨2, ![M, K]⟩ : Shape).Idx → EReal) : (⟨1, ![M]⟩ : Shape).Idx → EReal :=
  fun i => ∑ k : Fin K, u (ix2 (n0 := M) (i 0) k) * v (ix2 (n0 := M) (i 0) k)

theorem project_apply (x : (⟨2, ![M, K]⟩ : Shape).Idx → EReal) (w : (⟨2, ![K, N]⟩ : Shape).Idx → EReal) (p : Fin M) (q : Fin N) :
    project x w (ix2 p q) = ∑ k : Fin K, x (ix2 p k) * w (ix2 k q) := rfl

/-! ## The host's operations are these functions -/

/-- A host `dot_general` whose dimension numbers are the ordinary matrix product's is the projection. -/
theorem dotGeneral_eq_project (d : DotDims ⟨2, ![M, K]⟩ ⟨2, ![K, N]⟩ ⟨2, ![M, N]⟩) (hd : d = DotDims.plain M K N)
    (prec : Option ContractPrecision) (x : FVec Ideal ⟨2, ![M, K]⟩ .f32) (w : FVec Ideal ⟨2, ![K, N]⟩ .f32) :
    Host.dotGeneral d prec x w = project x w := by
  subst hd
  funext i
  obtain ⟨p, q, rfl⟩ : ∃ (p : Fin M) (q : Fin N), i = ix2 p q := ⟨i 0, i 1, eq_ix2 i⟩
  exact Cert.Lib.dotGeneral_plain_apply prec _ x w p q

/-- A bias vector broadcast to a row and then over all rows, read at `(p, q)`, is its entry `q`; so is the vector
    reshaped to a row and read at `(0, q)`. -/
theorem bias_bcast_apply (b : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) (p : Fin M) (q : Fin N) :
    broadcastInDim ⟨2, ![M, N]⟩ ![0, 1] h2 (broadcastInDim ⟨2, ![1, N]⟩ ![1] h1 b) (ix2 p q)
      = shapeCast ⟨2, ![1, N]⟩ b hc (ix2 (0 : Fin 1) q) := by
  rw [shapeCast_a_1a_apply b hc (0 : Fin 1) q]
  rw [broadcastInDim_apply ![0, 1] h2 _ (ix2 p q) (ix2 (0 : Fin 1) q) (fun a => by
    match a with
    | ⟨0, _⟩ => rfl
    | ⟨1, _⟩ =>
      show q.val = if N = 1 then 0 else q.val
      split
      · have := q.isLt; omega
      · rfl)]
  rw [broadcastInDim_apply ![1] h1 b (ix2 (0 : Fin 1) q) (ix1 q) (fun a => by
    match a with
    | ⟨0, _⟩ =>
      show q.val = if N = 1 then 0 else q.val
      split
      · have := q.isLt; omega
      · rfl)]

/-- Adding the twice-broadcast bias vector is adding the bias row. -/
theorem addf_bias_eq_addRow (a : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf a (broadcastInDim ⟨2, ![M, N]⟩ ![0, 1] h2 (broadcastInDim ⟨2, ![1, N]⟩ ![1] h1 b))
      = addRow a (shapeCast ⟨2, ![1, N]⟩ b hc) := by
  funext i
  obtain ⟨p, q, rfl⟩ : ∃ (p : Fin M) (q : Fin N), i = ix2 p q := ⟨i 0, i 1, eq_ix2 i⟩
  show a (ix2 p q) + _ = a (ix2 p q) + shapeCast ⟨2, ![1, N]⟩ b hc (ix2 (0 : Fin 1) q)
  rw [bias_bcast_apply b h1 h2 hc p q]

/-- The clamp by a `maximum` with the broadcast zero constant of the biased features is `addRowClamp`. -/
theorem maximumf_bias_eq_addRowClamp (a : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![])
    (hc : (⟨1, ![N]⟩ : Shape).ShapeCasts ⟨2, ![1, N]⟩) :
    maximumf (addf a (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = addRowClamp a (shapeCast ⟨2, ![1, N]⟩ b hc) := by
  rw [addf_bias_eq_addRow a b h1 h2 hc]
  funext i
  show max (addRow a _ i) (broadcastInDim ⟨2, ![M, N]⟩ ![] h0 (constant (F := Ideal) ⟨0, ![]⟩ .f32 0x00000000#32) i) = max (addRow a _ i) 0
  rw [broadcastInDim_apply ![] h0 _ i ix0 (fun a => a.elim0)]
  show max _ (Ideal.ofBits .f32 0x00000000#32) = _
  rw [Ideal.ofBits_zero_f32]

end Cert.Layers

end
-- ==== Proof.Network.lean ====
/-
  The network both programs compute, and the reference's reading of it.

  Three graph-convolution layers over 50000 nodes.  A layer projects the node features by its weight matrix
  (`project`), sends the projected rows along the edges and keeps each node's own scaled row (`mixed`: the two edge-side
  functions of GraphMix added), adds the layer's bias row to every node and, in the first two layers, clamps at zero:

      hidden1 = max (mixed (x · W0) + b0) 0      hidden2 = max (mixed (hidden1 · W1) + b1) 0
      output  =      mixed (hidden2 · W2) + b2

  The edge data enter only through four arrays that both programs compute from the edge list and the edge weights by
  the same host operations: the source and destination numbers, the normalised edge weights, and the self-loop
  coefficients.  They are named by the reference's own stages and never opened.

  The second half reads the reference: its matrix products are `project`, its twice-broadcast bias vectors added (and
  clamped by a maximum with a broadcast zero) are `addRow` (`addRowClamp`), and what lies between is `mixed`, stage for
  stage.
-/
import proofs.«172918_j24824910971032_1_alg».proof.Proof.Gen.ReferenceIdeal.Read
import proofs.«172918_j24824910971032_1_alg».proof.Proof.GraphMix
import proofs.«172918_j24824910971032_1_alg».proof.Proof.LibDenseLayers

noncomputable section

namespace Cert.Network

open Idealize.ShloMosaic Cert.ReferenceIdeal Cert.ReferenceIdeal.Gen Cert.ReferenceIdeal.Read Cert.GraphMix Cert.Layers

/-- One layer's edge side on rows of length 128: the messages summed at their destinations plus each node's own scaled
    row, with the edge arrays the edge list `e` and the edge weights `a` give. -/
def mixed128 (e : (⟨S2x800000, .i32⟩ : BufTy).Contents (Elt Ideal)) (a : (⟨S800000, .f32⟩ : BufTy).Contents (Elt Ideal))
    (hw : FVec Ideal S50000x128 .f32) : FVec Ideal S50000x128 .f32 :=
  addf (messages128 (val_main_v1 e) (val_main_v3 e) (val_main_v28 e a) hw) (selfTerm128 (val_main_v29 e a) hw)

/-- The same on rows of length 2. -/
def mixed2 (e : (⟨S2x800000, .i32⟩ : BufTy).Contents (Elt Ideal)) (a : (⟨S800000, .f32⟩ : BufTy).Contents (Elt Ideal))
    (hw : FVec Ideal S50000x2 .f32) : FVec Ideal S50000x2 .f32 :=
  addf (messages2 (val_main_v1 e) (val_main_v3 e) (val_main_v28 e a) hw) (selfTerm2 (val_main_v29 e a) hw)

/-- A bias vector of length 128 as a row. -/
def row128 (b : FVec Ideal S128 .f32) : FVec Ideal S1x128 .f32 := shapeCast S1x128 b (by decide)
/-- A bias vector of length 2 as a row. -/
def row2 (b : FVec Ideal S2 .f32) : FVec Ideal S1x2 .f32 := shapeCast S1x2 b (by decide)

/-- The first layer's output. -/
def hidden1 (x : FVec Ideal S50000x128 .f32) (e : (⟨S2x800000, .i32⟩ : BufTy).Contents (Elt Ideal)) (a : FVec Ideal S800000 .f32)
    (w0 : FVec Ideal S128x128 .f32) (b0 : FVec Ideal S128 .f32) : FVec Ideal S50000x128 .f32 :=
  addRowClamp (mixed128 e a (project x w0)) (row128 b0)

/-- The second layer's output. -/
def hidden2 (x : FVec Ideal S50000x128 .f32) (e : (⟨S2x800000, .i32⟩ : BufTy).Contents (Elt Ideal)) (a : FVec Ideal S800000 .f32)
    (w0 : FVec Ideal S128x128 .f32) (b0 : FVec Ideal S128 .f32) (w1 : FVec Ideal S128x128 .f32) (b1 : FVec Ideal S128 .f32) :
    FVec Ideal S50000x128 .f32 :=
  addRowClamp (mixed128 e a (project (hidden1 x e a w0 b0) w1)) (row128 b1)

/-- The network's output: two numbers per node. -/
def output (x : FVec Ideal S50000x128 .f32) (e : (⟨S2x800000, .i32⟩ : BufTy).Contents (Elt Ideal)) (a : FVec Ideal S800000 .f32)
    (w0 : FVec Ideal S128x128 .f32) (b0 : FVec Ideal S128 .f32) (w1 : FVec Ideal S128x128 .f32) (b1 : FVec Ideal S128 .f32)
    (w2 : FVec Ideal S128x2 .f32) (b2 : FVec Ideal S2 .f32) : FVec Ideal S50000x2 .f32 :=
  addRow (mixed2 e a (project (hidden2 x e a w0 b0 w1 b1) w2)) (row2 b2)

/-! ## The reference computes the network -/

/-- The reference's first matrix product is the projection. -/
theorem ref_project1 (x0 : FVec Ideal S50000x128 .f32) (x3 : FVec Ideal S128x128 .f32) :
    val_main_v30 (F := Ideal) x0 x3 = project x0 x3 :=
  dotGeneral_eq_project _ rfl none x0 x3

/-- Between its first product and its first bias the reference applies the edge side, stage for stage. -/
theorem ref_mixed1 (x0 : FVec Ideal S50000x128 .f32) (x1 : (⟨S2x800000, .i32⟩ : BufTy).Contents (Elt Ideal)) (x2 : FVec Ideal S800000 .f32)
    (x3 : FVec Ideal S128x128 .f32) :
    val_main_v47 (F := Ideal) x0 x1 x2 x3 = mixed128 x1 x2 (val_main_v30 (F := Ideal) x0 x3) := rfl

/-- The reference's first layer. -/
theorem ref_hidden1 (x0 : FVec Ideal S50000x128 .f32) (x1 : (⟨S2x800000, .i32⟩ : BufTy).Contents (Elt Ideal)) (x2 : FVec Ideal S800000 .f32)
    (x3 : FVec Ideal S128x128 .f32) (x4 : FVec Ideal S128 .f32) :
    val_main_v51 (F := Ideal) x0 x1 x2 x3 x4 = hidden1 x0 x1 x2 x3 x4 := by
  unfold hidden1 row128
  rw [← ref_project1, ← ref_mixed1]
  exact maximumf_bias_eq_addRowClamp (val_main_v47 (F := Ideal) x0 x1 x2 x3) x4 bcast_S128_S1x128_1 bcast_S1x128_S50000x128_0_1
    bcast_S_S50000x128 (by decide)

/-- The reference's second matrix product is the projection of its first layer. -/
theorem ref_mixed2 (x0 : FVec Ideal S50000x128 .f32) (x1 : (⟨S2x800000, .i32⟩ : BufTy).Contents (Elt Ideal)) (x2 : FVec Ideal S800000 .f32)
    (x3 : FVec Ideal S128x128 .f32) (x4 : FVec Ideal S128 .f32) (x5 : FVec Ideal S128x128 .f32) :
    val_main_v69 (F := Ideal) x0 x1 x2 x3 x4 x5 = mixed128 x1 x2 (val_main_v52 (F := Ideal) x0 x1 x2 x3 x4 x5) := rfl

/-- The reference's second layer. -/
theorem ref_hidden2 (x0 : FVec Ideal S50000x128 .f32) (x1 : (⟨S2x800000, .i32⟩ : BufTy).Contents (Elt Ideal)) (x2 : FVec Ideal S800000 .f32)
    (x3 : FVec Ideal S128x128 .f32) (x4 : FVec Ideal S128 .f32) (x5 : FVec Ideal S128x128 .f32) (x6 : FVec Ideal S128 .f32) :
    val_main_v73 (F := Ideal) x0 x1 x2 x3 x4 x5 x6 = hidden2 x0 x1 x2 x3 x4 x5 x6 := by
  have hp : val_main_v52 (F := Ideal) x0 x1 x2 x3 x4 x5 = project (hidden1 x0 x1 x2 x3 x4) x5 := by
    rw [← ref_hidden1]; exact dotGeneral_eq_project _ rfl none _ x5
  unfold hidden2 row128
  rw [← hp, ← ref_mixed2]
  exact maximumf_bias_eq_addRowClamp (val_main_v69 (F := Ideal) x0 x1 x2 x3 x4 x5) x6 bcast_S128_S1x128_1 bcast_S1x128_S50000x128_0_1
    bcast_S_S50000x128 (by decide)

/-- Between its last product and its last bias the reference applies the edge side on rows of length 2. -/
theorem ref_mixed3 (x0 : FVec Ideal S50000x128 .f32) (x1 : (⟨S2x800000, .i32⟩ : BufTy).Contents (Elt Ideal)) (x2 : FVec Ideal S800000 .f32)
    (x3 : FVec Ideal S128x128 .f32) (x4 : FVec Ideal S128 .f32) (x5 : FVec Ideal S128x128 .f32) (x6 : FVec Ideal S128 .f32)
    (x7 : FVec Ideal S128x2 .f32) :
    val_main_v91 (F := Ideal) x0 x1 x2 x3 x4 x5 x6 x7 = mixed2 x1 x2 (val_main_v74 (F := Ideal) x0 x1 x2 x3 x4 x5 x6 x7) := rfl

/-- THE REFERENCE'S RESULT is the network's output. -/
theorem ref_output (x0 : FVec Ideal S50000x128 .f32) (x1 : (⟨S2x800000, .i32⟩ : BufTy).Contents (Elt Ideal)) (x2 : FVec Ideal S800000 .f32)
    (x3 : FVec Ideal S128x128 .f32) (x4 : FVec Ideal S128 .f32) (x5 : FVec Ideal S128x128 .f32) (x6 : FVec Ideal S128 .f32)
    (x7 : FVec Ideal S128x2 .f32) (x8 : FVec Ideal S2 .f32) :
    val_main_v94 (F := Ideal) x0 x1 x2 x3 x4 x5 x6 x7 x8 = output x0 x1 x2 x3 x4 x5 x6 x7 x8 := by
  have hp : val_main_v74 (F := Ideal) x0 x1 x2 x3 x4 x5 x6 x7 = project (hidden2 x0 x1 x2 x3 x4 x5 x6) x7 := by
    rw [← ref_hidden2]; exact dotGeneral_eq_project _ rfl none _ x7
  unfold output row2
  rw [← hp, ← ref_mixed3]
  exact addf_bias_eq_addRow (val_main_v91 (F := Ideal) x0 x1 x2 x3 x4 x5 x6 x7) x8 bcast_S2_S1x2_1 bcast_S1x2_S50000x2_0_1 (by decide)

end Cert.Network

end
-- ==== Proof.ResultRun.lean ====
/-
  The idealized kernel's run, with the result array named.

  The program is twelve segments: three stretches of host operations, the first projection region, a stretch of host
  operations, the first combine region and the second projection region back to back, a stretch, the second combine region
  and the last projection region, a stretch, the last combine region.  Running the segments in order leaves every buffer the
  kernel does not scope at the contents of the last boundary; read against the final memory that gives the frame (each
  argument array walks back through the boundaries to its launch contents) and, at the result buffer, the array the last
  combine region wrote.  Only the second reading is new here: the run is the same launch over the same segments.
-/
import proofs.«172918_j24824910971032_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's program terminates without a fault; the result buffer ends at the contents
    of the last segment boundary, and every argument array as launched. -/
theorem run : θ_run defs (onTc (τ := τ) (main (F := F))) ⟨m, fun _ => 0, ρ⟩ (fun r => ∀ c : Dev nD,
      r.2.mem ((c.tc : Thread nD τ).loc main_v86) = W12 m ρ c (Proc.devRef .tc main_v86)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v86 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c)⟩)

end Cert.KernelIdeal.Result

end
-- ==== Proof.EdgeArrays.lean ====
/-
  The edge arrays and the argument arrays when the first region is entered.

  Three stretches of host operations run before the first region.  From the edge list they cut the source and the
  destination numbers; from the destination numbers and the edge weights they sum each node's incoming weight, add the
  self-loop's 1, and take the reciprocal square root where that degree is positive and 0 elsewhere; from these they form
  each edge's normalised weight and each node's self-loop coefficient.  These are the operations the reference applies
  to the same arguments, in the same order, so each array is the reference's own stage of the arguments.

  The choice between the reciprocal square root and 0 is made inside a function the program calls; its operands and its
  result pass through views typed by the buffers' declared types.  At a literal buffer whose declared type is the
  value's type such a view is the identity, which removes every view from the composed term.

  No operation of the three stretches writes an argument array.
-/
import proofs.«172918_j24824910971032_1_alg».proof.Proof.Gen.KernelIdeal.Frame
import proofs.«172918_j24824910971032_1_alg».proof.Proof.Network
import Idealize.ShloMosaic.Lib.StableHlo.Run

set_option maxRecDepth 16384

noncomputable section

namespace Cert.KernelIdeal.EdgeArrays

open Cert.KernelIdeal Cert.KernelIdeal.Gen
open Idealize.ShloMosaic Idealize.ShloMosaic.TcCoe Idealize.SL.Sem Idealize.ShloMosaic.StableHlo
open Cert.ReferenceIdeal.Read Cert.GraphMix Cert.Network Cert.Layers

variable (m : (ℓ : Loc nD τ sig) → Buf (Elt Ideal) ℓ) (ρ : Dev nD → PrngReg)

/-! ## The called function's typed views of literal buffers are the identity -/

/-- At a literal buffer whose declared type is the value's, carrying contents into the typed view is the identity. -/
theorem ofBuf_cst2 (h1 h2 h3) (v : (⟨S_, .f32⟩ : BufTy).Contents (Elt Ideal)) :
    (TRef.of (sig := sig) (T := ⟨S_, .f32⟩) main_cst_2 h1 h2 h3).ofBuf (Val := Elt Ideal) v = v := rfl
theorem ofBuf_call0_v0 (h1 h2 h3) (v : (⟨S_, .f32⟩ : BufTy).Contents (Elt Ideal)) :
    (TRef.of (sig := sig) (T := ⟨S_, .f32⟩) main_call0_v0 h1 h2 h3).ofBuf (Val := Elt Ideal) v = v := rfl
theorem toBuf_call0_v0 (h1 h2 h3) (v : (⟨S_, .f32⟩ : BufTy).Contents (Elt Ideal)) :
    (TRef.of (sig := sig) (T := ⟨S_, .f32⟩) main_call0_v0 h1 h2 h3).toBuf (Val := Elt Ideal) v = v := rfl
theorem ofBuf_call0_v1 (h1 h2 h3) (v : (⟨S50000, .f32⟩ : BufTy).Contents (Elt Ideal)) :
    (TRef.of (sig := sig) (T := ⟨S50000, .f32⟩) main_call0_v1 h1 h2 h3).ofBuf (Val := Elt Ideal) v = v := rfl
theorem toBuf_call0_v1 (h1 h2 h3) (v : (⟨S50000, .f32⟩ : BufTy).Contents (Elt Ideal)) :
    (TRef.of (sig := sig) (T := ⟨S50000, .f32⟩) main_call0_v1 h1 h2 h3).toBuf (Val := Elt Ideal) v = v := rfl
theorem ofBuf_v10 (h1 h2 h3) (v : (⟨S50000, .i1⟩ : BufTy).Contents (Elt Ideal)) :
    (TRef.of (sig := sig) (T := ⟨S50000, .i1⟩) main_v10 h1 h2 h3).ofBuf (Val := Elt Ideal) v = v := rfl
theorem ofBuf_v11 (h1 h2 h3) (v : (⟨S50000, .f32⟩ : BufTy).Contents (Elt Ideal)) :
    (TRef.of (sig := sig) (T := ⟨S50000, .f32⟩) main_v11 h1 h2 h3).ofBuf (Val := Elt Ideal) v = v := rfl
theorem toBuf_v12 (h1 h2 h3) (v : (⟨S50000, .f32⟩ : BufTy).Contents (Elt Ideal)) :
    (TRef.of (sig := sig) (T := ⟨S50000, .f32⟩) main_v12 h1 h2 h3).toBuf (Val := Elt Ideal) v = v := rfl

/-! ## The arrays at the first region's entry -/

/-- The source and destination numbers are the reference's stages of the edge list. -/
theorem ends3 (c : Dev nD) :
    W3 m ρ c (Proc.devRef .tc main_v1) = val_main_v1 (F := Ideal) (m ((c : Thread nD τ).loc main_arg1))
    ∧ W3 m ρ c (Proc.devRef .tc main_v3) = val_main_v3 (F := Ideal) (m ((c : Thread nD τ).loc main_arg1)) := by
  refine ⟨?_, ?_⟩ <;>
  · show StableHlo.after hostOps0_2 (StableHlo.after hostOps0_1 (StableHlo.after hostOps0 (W0 m ρ c))) _ = _
    dsimp only [hostOps0, hostOps0_1, hostOps0_2]
    after_results_simp
    rfl

/-- The normalised edge weights are the reference's stage of the edge list and the edge weights. -/
theorem weights3 (c : Dev nD) :
    W3 m ρ c (Proc.devRef .tc main_v28) = val_main_v28 (F := Ideal) (m ((c : Thread nD τ).loc main_arg1)) (m ((c : Thread nD τ).loc main_arg2)) := by
  show StableHlo.after hostOps0_2 (StableHlo.after hostOps0_1 (StableHlo.after hostOps0 (W0 m ρ c))) _ = _
  dsimp only [hostOps0, hostOps0_1, hostOps0_2]
  after_results_simp
  rw [toBuf_v12]
  rw [ofBuf_v10]
  rw [ofBuf_v11]
  rw [toBuf_call0_v1, ofBuf_call0_v1]
  rw [toBuf_call0_v0, ofBuf_call0_v0]
  rw [ofBuf_cst2]
  rfl

/-- The self-loop coefficients are the reference's stage of the edge list and the edge weights. -/
theorem selfs3 (c : Dev nD) :
    W3 m ρ c (Proc.devRef .tc main_v29) = val_main_v29 (F := Ideal) (m ((c : Thread nD τ).loc main_arg1)) (m ((c : Thread nD τ).loc main_arg2)) := by
  show StableHlo.after hostOps0_2 (StableHlo.after hostOps0_1 (StableHlo.after hostOps0 (W0 m ρ c))) _ = _
  dsimp only [hostOps0, hostOps0_1, hostOps0_2]
  after_results_simp
  rw [toBuf_v12]
  rw [ofBuf_v10]
  rw [ofBuf_v11]
  rw [toBuf_call0_v1, ofBuf_call0_v1]
  rw [toBuf_call0_v0, ofBuf_call0_v0]
  rw [ofBuf_cst2]
  rfl

/-- No host operation before the first region writes an argument array. -/
theorem args3 (c : Dev nD) :
    W3 m ρ c (Proc.devRef .tc main_arg0) = (m ((c : Thread nD τ).loc main_arg0))
    ∧ W3 m ρ c (Proc.devRef .tc main_arg3) = (m ((c : Thread nD τ).loc main_arg3))
    ∧ W3 m ρ c (Proc.devRef .tc main_arg4) = (m ((c : Thread nD τ).loc main_arg4))
    ∧ W3 m ρ c (Proc.devRef .tc main_arg5) = (m ((c : Thread nD τ).loc main_arg5))
    ∧ W3 m ρ c (Proc.devRef .tc main_arg6) = (m ((c : Thread nD τ).loc main_arg6))
    ∧ W3 m ρ c (Proc.devRef .tc main_arg7) = (m ((c : Thread nD τ).loc main_arg7))
    ∧ W3 m ρ c (Proc.devRef .tc main_arg8) = (m ((c : Thread nD τ).loc main_arg8)) := by
  refine ⟨?_, ?_, ?_, ?_, ?_, ?_, ?_⟩ <;>
  · show StableHlo.after hostOps0_2 (StableHlo.after hostOps0_1 (StableHlo.after hostOps0 (W0 m ρ c))) _ = _
    dsimp only [hostOps0, hostOps0_1, hostOps0_2]
    after_results_simp

end Cert.KernelIdeal.EdgeArrays

end
-- ==== Proof.Stretches.lean ====
/-
  The three stretches of host operations between the regions, read from any contents of the buffers.

  Each layer's stretch takes the projected features the projection region left, forms the summed messages and the
  self-loop term from them and the four edge arrays (the two edge-side functions, applied to the buffers' contents as they
  are), and casts the layer's bias vector to a row.  It writes nothing else that a later segment reads: the edge arrays and
  the remaining argument arrays pass through unchanged.
-/
import proofs.«172918_j24824910971032_1_alg».proof.Proof.Gen.KernelIdeal.Launch
import proofs.«172918_j24824910971032_1_alg».proof.Proof.Network
import Idealize.ShloMosaic.Lib.StableHlo.Run

set_option maxRecDepth 16384

noncomputable section

namespace Cert.KernelIdeal.Stretches

open Cert.KernelIdeal Cert.KernelIdeal.Gen
open Idealize.ShloMosaic Idealize.ShloMosaic.TcCoe Idealize.SL.Sem Idealize.ShloMosaic.StableHlo
open Cert.ReferenceIdeal.Read Cert.GraphMix Cert.Network Cert.Layers

/-- The first layer's stretch. -/
theorem stretch1 (V : Valuation τ sig (Elt Ideal)) :
    StableHlo.after hostOps1 V (Proc.devRef .tc main_v43)
        = messages128 (V (Proc.devRef .tc main_v1)) (V (Proc.devRef .tc main_v3)) (V (Proc.devRef .tc main_v28)) (V (Proc.devRef .tc main_v30))
    ∧ StableHlo.after hostOps1 V (Proc.devRef .tc main_v46) = selfTerm128 (V (Proc.devRef .tc main_v29)) (V (Proc.devRef .tc main_v30))
    ∧ StableHlo.after hostOps1 V (Proc.devRef .tc main_v47) = row128 (V (Proc.devRef .tc main_arg4)) := by
  refine ⟨?_, ?_, ?_⟩ <;>
  · dsimp only [hostOps1]; after_results_simp
    rfl

/-- What the first layer's stretch leaves alone. -/
theorem stretch1_keeps (V : Valuation τ sig (Elt Ideal)) :
    StableHlo.after hostOps1 V (Proc.devRef .tc main_v1) = V (Proc.devRef .tc main_v1)
    ∧ StableHlo.after hostOps1 V (Proc.devRef .tc main_v3) = V (Proc.devRef .tc main_v3)
    ∧ StableHlo.after hostOps1 V (Proc.devRef .tc main_v28) = V (Proc.devRef .tc main_v28)
    ∧ StableHlo.after hostOps1 V (Proc.devRef .tc main_v29) = V (Proc.devRef .tc main_v29)
    ∧ StableHlo.after hostOps1 V (Proc.devRef .tc main_arg5) = V (Proc.devRef .tc main_arg5)
    ∧ StableHlo.after hostOps1 V (Proc.devRef .tc main_arg6) = V (Proc.devRef .tc main_arg6)
    ∧ StableHlo.after hostOps1 V (Proc.devRef .tc main_arg7) = V (Proc.devRef .tc main_arg7)
    ∧ StableHlo.after hostOps1 V (Proc.devRef .tc main_arg8) = V (Proc.devRef .tc main_arg8) := by
  refine ⟨?_, ?_, ?_, ?_, ?_, ?_, ?_, ?_⟩ <;>
  · dsimp only [hostOps1]; after_results_simp

/-- The second layer's stretch. -/
theorem stretch3 (V : Valuation τ sig (Elt Ideal)) :
    StableHlo.after hostOps3 V (Proc.devRef .tc main_v62)
        = messages128 (V (Proc.devRef .tc main_v1)) (V (Proc.devRef .tc main_v3)) (V (Proc.devRef .tc main_v28)) (V (Proc.devRef .tc main_v49))
    ∧ StableHlo.after hostOps3 V (Proc.devRef .tc main_v65) = selfTerm128 (V (Proc.devRef .tc main_v29)) (V (Proc.devRef .tc main_v49))
    ∧ StableHlo.after hostOps3 V (Proc.devRef .tc main_v66) = row128 (V (Proc.devRef .tc main_arg6)) := by
  refine ⟨?_, ?_, ?_⟩ <;>
  · dsimp only [hostOps3]; after_results_simp
    rfl

/-- What the second layer's stretch leaves alone. -/
theorem stretch3_keeps (V : Valuation τ sig (Elt Ideal)) :
    StableHlo.after hostOps3 V (Proc.devRef .tc main_v1) = V (Proc.devRef .tc main_v1)
    ∧ StableHlo.after hostOps3 V (Proc.devRef .tc main_v3) = V (Proc.devRef .tc main_v3)
    ∧ StableHlo.after hostOps3 V (Proc.devRef .tc main_v28) = V (Proc.devRef .tc main_v28)
    ∧ StableHlo.after hostOps3 V (Proc.devRef .tc main_v29) = V (Proc.devRef .tc main_v29)
    ∧ StableHlo.after hostOps3 V (Proc.devRef .tc main_arg7) = V (Proc.devRef .tc main_arg7)
    ∧ StableHlo.after hostOps3 V (Proc.devRef .tc main_arg8) = V (Proc.devRef .tc main_arg8) := by
  refine ⟨?_, ?_, ?_, ?_, ?_, ?_⟩ <;>
  · dsimp only [hostOps3]; after_results_simp

/-- The last layer's stretch. -/
theorem stretch5 (V : Valuation τ sig (Elt Ideal)) :
    StableHlo.after hostOps5 V (Proc.devRef .tc main_v81)
        = messages2 (V (Proc.devRef .tc main_v1)) (V (Proc.devRef .tc main_v3)) (V (Proc.devRef .tc main_v28)) (V (Proc.devRef .tc main_v68))
    ∧ StableHlo.after hostOps5 V (Proc.devRef .tc main_v84) = selfTerm2 (V (Proc.devRef .tc main_v29)) (V (Proc.devRef .tc main_v68))
    ∧ StableHlo.after hostOps5 V (Proc.devRef .tc main_v85) = row2 (V (Proc.devRef .tc main_arg8)) := by
  refine ⟨?_, ?_, ?_⟩ <;>
  · dsimp only [hostOps5]; after_results_simp
    rfl

end Cert.KernelIdeal.Stretches

end
-- ==== Proof.Project0.lean ====
/-
  Projection region 0: the array it leaves is the matrix product of the arrays it reads.

  The region's ten grid points each take a block of 5000 node rows (all 128 columns) and the whole weight matrix, and
  store the block's rows times the matrix: entry (p, q) of the stored block is the sum over k of row p's entry k times
  the matrix's entry (k, q).  The conversions to the narrower float format before the product are the identity on the
  extended reals, and the accumulator the product starts from is zero.  Point t writes back rows 5000·t … 5000·t + 4999,
  so the ten blocks tile the 50000 rows and the array ends as the product of the whole arrays, row by row.
-/
import proofs.«172918_j24824910971032_1_alg».proof.Proof.Gen.KernelIdeal.Frame
import proofs.«172918_j24824910971032_1_alg».proof.Proof.LibDenseLayers
import Idealize.ShloMosaic.Lib.Pipeline.Value
import Idealize.ShloMosaic.Lib.ValueIdx

set_option maxRecDepth 16384

noncomputable section

namespace Cert.KernelIdeal.Project0

open Idealize.ShloMosaic Idealize.ShloMosaic.TcCoe Idealize.ShloMosaic.ValueIdx Idealize.SL.Sem
open Cert.KernelIdeal Cert.KernelIdeal.Gen Cert.Layers
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- What the body stores: the loaded rows times the loaded matrix. -/
theorem stored_eq (x0 : Vec Ideal S5000x128 .f32) (x1 : Vec Ideal S128x128 .f32) :
    k0_pay1 (F := Ideal) x0 x1 = project x0 x1 := by
  funext j
  obtain ⟨p, q, rfl⟩ : ∃ (p : Fin 5000) (q : Fin 128), j = ix2 p q := ⟨j 0, j 1, eq_ix2 j⟩
  exact Cert.Lib.matmul_plain_zero_apply (M := 5000) (K := 128) (N := 128) none x0 x1 p q

/-- The printed index maps over the grid: the row blocks of the input and of the output are block t, the matrix is
    always its one block, and neither moves along the columns. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT t WRITES BACK is block t of the product of the whole arrays. -/
theorem flushed_eq (c : Dev nD) (t : Fin cfg0.N) :
    (dat0 V c).flushed 2 t
      = ((cfg0.win 2).blk t).view.read (Elt Ideal) (project (V c main_arg0) (V c main_arg3)) := by
  show (cfg0.win 2).cut (grid0.coords t) ((dat0 V c).after 2 t) = _
  rw [after0_2]
  unfold out0_2
  rw [View.canon_unit_zero origin]
  simp only [View.ld_unit_zero (S := S5000x128) origin, View.ld_unit_zero (S := S128x128) origin]
  rw [stored_eq]
  obtain ⟨e0, e1, e2, e3, e4, e5⟩ := index_facts t
  funext j
  let X : S50000x128.Idx → EReal := V c main_arg0
  let M : S128x128.Idx → EReal := V c main_arg3
  show (∑ k : Fin 128, X (((cfg0.win 0).blk t).view.emb (ix2 (j 0) k)) * M (((cfg0.win 1).blk t).view.emb (ix2 k (j 1))))
      = ∑ k : Fin 128, X (ix2 ((((cfg0.win 2).blk t).view.emb j) 0) k) * M (ix2 k ((((cfg0.win 2).blk t).view.emb j) 1))
  refine Finset.sum_congr rfl fun k _ => ?_
  have hx : ((cfg0.win 0).blk t).view.emb (ix2 (j 0) k) = ix2 ((((cfg0.win 2).blk t).view.emb j) 0) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have hw : ((cfg0.win 1).blk t).view.emb (ix2 k (j 1)) = ix2 k ((((cfg0.win 2).blk t).view.emb j) 1) := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  exact congrArg₂ (· * ·) (congrArg X hx) (congrArg M hw)

/-- An index of the output array is in point t's block iff each coordinate is in the block's range on its axis. -/
theorem mem_block (t : Fin cfg0.N) (i : S50000x128.Idx) :
    i ∈ ((cfg0.win 2).blk t).view.set
      ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Every row of the output array lies in the block of the point numbered by its row divided by 5000. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : grid0.N = 10 := N_0
  refine ⟨⟨(i 0).val / 5000, by rw [show cfg0.N = grid0.N from rfl, hN]; omega⟩, flush0_2 _, ?_⟩
  rw [mem_block]
  obtain ⟨e0, e1, e2, e3, e4, e5⟩ := index_facts ⟨(i 0).val / 5000, by rw [show cfg0.N = grid0.N from rfl, hN]; omega⟩
  intro a
  match a with
  | ⟨0, _⟩ =>
    show win0_2.index _ (0 : Fin 2) * 5000 ≤ (i 0).val ∧ (i 0).val < win0_2.index _ (0 : Fin 2) * 5000 + 5000
    rw [e4]; show (i 0).val / 5000 * 5000 ≤ (i 0).val ∧ (i 0).val < (i 0).val / 5000 * 5000 + 5000; omega
  | ⟨1, _⟩ =>
    show win0_2.index _ (1 : Fin 2) * 128 ≤ (i 1).val ∧ (i 1).val < win0_2.index _ (1 : Fin 2) * 128 + 128
    rw [e5]; omega

/-- THE ARRAY THE REGION LEAVES: the product of the arrays it reads. -/
theorem final (c : Dev nD) :
    (dat0 V c).arrAt 2 cfg0.N = project (V c main_arg0) (V c main_arg3) :=
  (dat0 V c).arrAt_eq_of_cover 2 (project (V c main_arg0) (V c main_arg3)) (fun t _ => flushed_eq V c t) (covered)

end Cert.KernelIdeal.Project0

end
-- ==== Proof.Project2.lean ====
/-
  Projection region 2: the array it leaves is the matrix product of the arrays it reads.

  The region's ten grid points each take a block of 5000 node rows (all 128 columns) and the whole weight matrix, and
  store the block's rows (first cast to the shape they already have) times the matrix: entry (p, q) of the stored block is the sum over k of row p's entry k times
  the matrix's entry (k, q).  The conversions to the narrower float format before the product are the identity on the
  extended reals, and the accumulator the product starts from is zero.  Point t writes back rows 5000·t … 5000·t + 4999,
  so the ten blocks tile the 50000 rows and the array ends as the product of the whole arrays, row by row.
-/
import proofs.«172918_j24824910971032_1_alg».proof.Proof.Gen.KernelIdeal.Frame
import proofs.«172918_j24824910971032_1_alg».proof.Proof.LibDenseLayers
import Idealize.ShloMosaic.Lib.Pipeline.Value
import Idealize.ShloMosaic.Lib.ValueIdx

set_option maxRecDepth 16384

noncomputable section

namespace Cert.KernelIdeal.Project2

open Idealize.ShloMosaic Idealize.ShloMosaic.TcCoe Idealize.ShloMosaic.ValueIdx Idealize.SL.Sem
open Cert.KernelIdeal Cert.KernelIdeal.Gen Cert.Layers
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- What the body stores: the loaded rows times the loaded matrix. -/
theorem stored_eq (x0 : Vec Ideal S5000x128 .f32) (x1 : Vec Ideal S128x128 .f32) :
    k2_pay1 (F := Ideal) x0 x1 = project x0 x1 := by
  funext j
  obtain ⟨p, q, rfl⟩ : ∃ (p : Fin 5000) (q : Fin 128), j = ix2 p q := ⟨j 0, j 1, eq_ix2 j⟩
  have hc : shapeCast S5000x128 x0 shapeCasts_S5000x128_S5000x128 = x0 := shapeCast_self x0 _
  unfold k2_pay1
  simp only [hc]
  exact Cert.Lib.matmul_plain_zero_apply (M := 5000) (K := 128) (N := 128) none x0 x1 p q

/-- The printed index maps over the grid: the row blocks of the input and of the output are block t, the matrix is
    always its one block, and neither moves along the columns. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- WHAT POINT t WRITES BACK is block t of the product of the whole arrays. -/
theorem flushed_eq (c : Dev nD) (t : Fin cfg2.N) :
    (dat2 V c).flushed 2 t
      = ((cfg2.win 2).blk t).view.read (Elt Ideal) (project (V c main_v48) (V c main_arg5)) := by
  show (cfg2.win 2).cut (grid2.coords t) ((dat2 V c).after 2 t) = _
  rw [after2_2]
  unfold out2_2
  rw [View.canon_unit_zero origin]
  simp only [View.ld_unit_zero (S := S5000x128) origin, View.ld_unit_zero (S := S128x128) origin]
  rw [stored_eq]
  obtain ⟨e0, e1, e2, e3, e4, e5⟩ := index_facts t
  funext j
  let X : S50000x128.Idx → EReal := V c main_v48
  let M : S128x128.Idx → EReal := V c main_arg5
  show (∑ k : Fin 128, X (((cfg2.win 0).blk t).view.emb (ix2 (j 0) k)) * M (((cfg2.win 1).blk t).view.emb (ix2 k (j 1))))
      = ∑ k : Fin 128, X (ix2 ((((cfg2.win 2).blk t).view.emb j) 0) k) * M (ix2 k ((((cfg2.win 2).blk t).view.emb j) 1))
  refine Finset.sum_congr rfl fun k _ => ?_
  have hx : ((cfg2.win 0).blk t).view.emb (ix2 (j 0) k) = ix2 ((((cfg2.win 2).blk t).view.emb j) 0) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  have hw : ((cfg2.win 1).blk t).view.emb (ix2 k (j 1)) = ix2 k ((((cfg2.win 2).blk t).view.emb j) 1) := by
    funext a; apply Fin.ext
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega
  exact congrArg₂ (· * ·) (congrArg X hx) (congrArg M hw)

/-- An index of the output array is in point t's block iff each coordinate is in the block's range on its axis. -/
theorem mem_block (t : Fin cfg2.N) (i : S50000x128.Idx) :
    i ∈ ((cfg2.win 2).blk t).view.set
      ↔ ∀ a : Fin 2, win2_2.index t a * S5000x128.size a ≤ (i a).val ∧ (i a).val < win2_2.index t a * S5000x128.size a + S5000x128.size a := by
  show i ∈ ((View.whole main_v49).slice (win2_2.rect t)).set ↔ _
  rw [View.set_slice_whole, Rect.mem_set_unit]
  exact Iff.rfl

/-- Every row of the output array lies in the block of the point numbered by its row divided by 5000. -/
theorem covered (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : grid2.N = 10 := N_2
  refine ⟨⟨(i 0).val / 5000, by rw [show cfg2.N = grid2.N from rfl, hN]; omega⟩, flush2_2 _, ?_⟩
  rw [mem_block]
  obtain ⟨e0, e1, e2, e3, e4, e5⟩ := index_facts ⟨(i 0).val / 5000, by rw [show cfg2.N = grid2.N from rfl, hN]; omega⟩
  intro a
  match a with
  | ⟨0, _⟩ =>
    show win2_2.index _ (0 : Fin 2) * 5000 ≤ (i 0).val ∧ (i 0).val < win2_2.index _ (0 : Fin 2) * 5000 + 5000
    rw [e4]; show (i 0).val / 5000 * 5000 ≤ (i 0).val ∧ (i 0).val < (i 0).val / 5000 * 5000 + 5000; omega
  | ⟨1, _⟩ =>
    show win2_2.index _ (1 : Fin 2) * 128 ≤ (i 1).val ∧ (i 1).val < win2_2.index _ (1 : Fin 2) * 128 + 128
    rw [e5]; omega

/-- THE ARRAY THE REGION LEAVES: the product of the arrays it reads. -/
theorem final (c : Dev nD) :
    (dat2 V c).arrAt 2 cfg2.N = project (V c main_v48) (V c main_arg5) :=
  (dat2 V c).arrAt_eq_of_cover 2 (project (V c main_v48) (V c main_arg5)) (fun t _ => flushed_eq V c t) (covered)

end Cert.KernelIdeal.Project2

end
-- ==== Proof.Project4.lean ====
/-
  Projection region 4: the array it leaves is the matrix product of the arrays it reads.

  The region's ten grid points each take a block of 5000 node rows (all 128 columns) and the whole weight matrix, and
  store the block's rows (first cast to the shape they already have) times the matrix: entry (p, q) of the stored block is the sum over k of row p's entry k times
  the matrix's entry (k, q).  The conversions to the narrower float format before the product are the identity on the
  extended reals, and the accumulator the product starts from is zero.  Point t writes back rows 5000·t … 5000·t + 4999,
  so the ten blocks tile the 50000 rows and the array ends as the product of the whole arrays, row by row.
-/
import proofs.«172918_j24824910971032_1_alg».proof.Proof.Gen.KernelIdeal.Frame
import proofs.«172918_j24824910971032_1_alg».proof.Proof.LibDenseLayers
import Idealize.ShloMosaic.Lib.Pipeline.Value
import Idealize.ShloMosaic.Lib.ValueIdx

set_option maxRecDepth 16384

noncomputable section

namespace Cert.KernelIdeal.Project4

open Idealize.ShloMosaic Idealize.ShloMosaic.TcCoe Idealize.ShloMosaic.ValueIdx Idealize.SL.Sem
open Cert.KernelIdeal Cert.KernelIdeal.Gen Cert.Layers
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- What the body stores: the loaded rows times the loaded matrix. -/
theorem stored_eq (x0 : Vec Ideal S5000x128 .f32) (x1 : Vec Ideal S128x2 .f32) :
    k4_pay1 (F := Ideal) x0 x1 = project x0 x1 := by
  funext j
  obtain ⟨p, q, rfl⟩ : ∃ (p : Fin 5000) (q : Fin 2), j = ix2 p q := ⟨j 0, j 1, eq_ix2 j⟩
  have hc : shapeCast S5000x128 x0 shapeCasts_S5000x128_S5000x128 = x0 := shapeCast_self x0 _
  unfold k4_pay1
  simp only [hc]
  exact Cert.Lib.matmul_plain_zero_apply (M := 5000) (K := 128) (N := 2) none x0 x1 p q

/-- The printed index maps over the grid: the row blocks of the input and of the output are block t, the matrix is
    always its one block, and neither moves along the columns. -/
theorem index_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- WHAT POINT t WRITES BACK is block t of the product of the whole arrays. -/
theorem flushed_eq (c : Dev nD) (t : Fin cfg4.N) :
    (dat4 V c).flushed 2 t
      = ((cfg4.win 2).blk t).view.read (Elt Ideal) (project (V c main_v67) (V c main_arg7)) := by
  show (cfg4.win 2).cut (grid4.coords t) ((dat4 V c).after 2 t) = _
  rw [after4_2]
  unfold out4_2
  rw [View.canon_unit_zero origin]
  simp only [View.ld_unit_zero (S := S5000x128) origin, View.ld_unit_zero (S := S128x2) origin]
  rw [stored_eq]
  obtain ⟨e0, e1, e2, e3, e4, e5⟩ := index_facts t
  funext j
  let X : S50000x128.Idx → EReal := V c main_v67
  let M : S128x2.Idx → EReal := V c main_arg7
  show (∑ k : Fin 128, X (((cfg4.win 0).blk t).view.emb (ix2 (j 0) k)) * M (((cfg4.win 1).blk t).view.emb (ix2 k (j 1))))
      = ∑ k : Fin 128, X (ix2 ((((cfg4.win 2).blk t).view.emb j) 0) k) * M (ix2 k ((((cfg4.win 2).blk t).view.emb j) 1))
  refine Finset.sum_congr rfl fun k _ => ?_
  have hx : ((cfg4.win 0).blk t).view.emb (ix2 (j 0) k) = ix2 ((((cfg4.win 2).blk t).view.emb j) 0) k := by
    funext a; apply Fin.ext
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 128 + 1 * k.val = k.val; omega
  have hw : ((cfg4.win 1).blk t).view.emb (ix2 k (j 1)) = ix2 k ((((cfg4.win 2).blk t).view.emb j) 1) := by
    funext a; apply Fin.ext
    match a with
    | ⟨0, _⟩ => show win4_1.index t (0 : Fin 2) * 128 + 1 * k.val = k.val; omega
    | ⟨1, _⟩ => show win4_1.index t (1 : Fin 2) * 2 + 1 * (j 1).val = win4_2.index t (1 : Fin 2) * 2 + 1 * (j 1).val; omega
  exact congrArg₂ (· * ·) (congrArg X hx) (congrArg M hw)

/-- An index of the output array is in point t's block iff each coordinate is in the block's range on its axis. -/
theorem mem_block (t : Fin cfg4.N) (i : S50000x2.Idx) :
    i ∈ ((cfg4.win 2).blk t).view.set
      ↔ ∀ a : Fin 2, win4_2.index t a * S5000x2.size a ≤ (i a).val ∧ (i a).val < win4_2.index t a * S5000x2.size a + S5000x2.size a := by
  show i ∈ ((View.whole main_v68).slice (win4_2.rect t)).set ↔ _
  rw [View.set_slice_whole, Rect.mem_set_unit]
  exact Iff.rfl

/-- Every row of the output array lies in the block of the point numbered by its row divided by 5000. -/
theorem covered (i : S50000x2.Idx) :
    ∃ t : Fin cfg4.N, (cfg4.win 2).flush t = true ∧ i ∈ ((cfg4.win 2).blk t).view.set := by
  have hi0 : (i 0).val < 50000 := (i 0).isLt
  have hi1 : (i 1).val < 2 := (i 1).isLt
  have hN : grid4.N = 10 := N_4
  refine ⟨⟨(i 0).val / 5000, by rw [show cfg4.N = grid4.N from rfl, hN]; omega⟩, flush4_2 _, ?_⟩
  rw [mem_block]
  obtain ⟨e0, e1, e2, e3, e4, e5⟩ := index_facts ⟨(i 0).val / 5000, by rw [show cfg4.N = grid4.N from rfl, hN]; omega⟩
  intro a
  match a with
  | ⟨0, _⟩ =>
    show win4_2.index _ (0 : Fin 2) * 5000 ≤ (i 0).val ∧ (i 0).val < win4_2.index _ (0 : Fin 2) * 5000 + 5000
    rw [e4]; show (i 0).val / 5000 * 5000 ≤ (i 0).val ∧ (i 0).val < (i 0).val / 5000 * 5000 + 5000; omega
  | ⟨1, _⟩ =>
    show win4_2.index _ (1 : Fin 2) * 2 ≤ (i 1).val ∧ (i 1).val < win4_2.index _ (1 : Fin 2) * 2 + 2
    rw [e5]; omega

/-- THE ARRAY THE REGION LEAVES: the product of the arrays it reads. -/
theorem final (c : Dev nD) :
    (dat4 V c).arrAt 2 cfg4.N = project (V c main_v67) (V c main_arg7) :=
  (dat4 V c).arrAt_eq_of_cover 2 (project (V c main_v67) (V c main_arg7)) (fun t _ => flushed_eq V c t) (covered)

end Cert.KernelIdeal.Project4

end
-- ==== Proof.Combine1.lean ====
/-
  Combine region 1: the array it leaves is the sum of the two arrays it reads plus the bias row, clamped at zero.

  The region's ten grid points each take a block of 5000 node rows of the summed messages and of the self-loop term, and
  the one bias row, and store, entry by entry, message + self term + the bias entry of that column, then the larger of that and zero.
  Point t writes back rows 5000·t … 5000·t + 4999, so the ten blocks tile the 50000 rows and the array ends as that
  function of the whole arrays.
-/
import proofs.«172918_j24824910971032_1_alg».proof.Proof.Gen.KernelIdeal.Frame
import proofs.«172918_j24824910971032_1_alg».proof.Proof.LibDenseLayers
import Idealize.ShloMosaic.Lib.Pipeline.Value
import Idealize.ShloMosaic.Lib.ValueIdx
import Idealize.ShloMosaic.Lib.ValueLayout

set_option maxRecDepth 16384

noncomputable section

namespace Cert.KernelIdeal.Combine1

open Idealize.ShloMosaic Idealize.ShloMosaic.TcCoe Idealize.ShloMosaic.ValueIdx Idealize.SL.Sem
open Cert.KernelIdeal Cert.KernelIdeal.Gen Cert.Layers
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- What the body stores: the two loaded blocks added, plus the bias row, clamped at zero. -/
theorem stored_eq (x0 x1 : Vec Ideal S5000x128 .f32) (x2 : Vec Ideal S1x128 .f32) :
    k1_pay1 (F := Ideal) x0 x1 x2 = addRowClamp (addf (F := Ideal) (s := S5000x128) (φ := .f32) x0 x1) x2 := by
  funext j
  obtain ⟨p, q, rfl⟩ : ∃ (p : Fin 5000) (q : Fin 128), j = ix2 p q := ⟨j 0, j 1, eq_ix2 j⟩
  show max (shapeCast S5000x128 x0 shapeCasts_S5000x128_S5000x128 (ix2 p q) + shapeCast S5000x128 x1 shapeCasts_S5000x128_S5000x128 (ix2 p q)
        + broadcastTo S5000x128 (shapeCast S1x128 x2 shapeCasts_S1x128_S1x128) broadcasts_S1x128_S5000x128 (ix2 p q)) (Ideal.ofBits .f32 0x00000000#32)
      = max (x0 (ix2 p q) + x1 (ix2 p q) + x2 (ix2 (0 : Fin 1) q)) 0
  rw [shapeCast_self, shapeCast_self, shapeCast_self, broadcastTo_1b_ab_apply, Ideal.ofBits_zero_f32]

/-- The printed index maps over the grid: the row blocks of the two inputs and of the output are block t, the bias row
    is always its one block, and nothing moves along the columns. -/
theorem index_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- WHAT POINT t WRITES BACK is block t of the combination of the whole arrays. -/
theorem flushed_eq (c : Dev nD) (t : Fin cfg1.N) :
    (dat1 V c).flushed 3 t
      = ((cfg1.win 3).blk t).view.read (Elt Ideal) (addRowClamp (addf (F := Ideal) (s := S50000x128) (φ := .f32) (V c main_v43) (V c main_v46)) (V c main_v47)) := by
  show (cfg1.win 3).cut (grid1.coords t) ((dat1 V c).after 3 t) = _
  rw [after1_3]
  unfold out1_3
  rw [View.canon_unit_zero origin]
  simp only [View.ld_unit_zero (S := S5000x128) origin, View.ld_unit_zero (S := S1x128) origin]
  rw [stored_eq]
  obtain ⟨e0, e1, e2, e3, e4, e5, e6, e7⟩ := index_facts t
  funext j
  let A : S50000x128.Idx → EReal := V c main_v43
  let S : S50000x128.Idx → EReal := V c main_v46
  let B : S1x128.Idx → EReal := V c main_v47
  show max (A (((cfg1.win 0).blk t).view.emb j) + S (((cfg1.win 1).blk t).view.emb j)
        + B (((cfg1.win 2).blk t).view.emb (ix2 (0 : Fin 1) (j 1)))) 0
      = max (A (((cfg1.win 3).blk t).view.emb j) + S (((cfg1.win 3).blk t).view.emb j)
        + B (ix2 (0 : Fin 1) ((((cfg1.win 3).blk t).view.emb j) 1))) 0
  have h0 : ((cfg1.win 0).blk t).view.emb j = ((cfg1.win 3).blk t).view.emb j := by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * (j 1).val = win1_3.index t (1 : Fin 2) * 128 + 1 * (j 1).val; omega
  have h1 : ((cfg1.win 1).blk t).view.emb j = ((cfg1.win 3).blk t).view.emb j := by
    funext a; apply Fin.ext
    match a with
    | ⟨0, _⟩ => show win1_1.index t (0 : Fin 2) * 5000 + 1 * (j 0).val = win1_3.index t (0 : Fin 2) * 5000 + 1 * (j 0).val; omega
    | ⟨1, _⟩ => show win1_1.index t (1 : Fin 2) * 128 + 1 * (j 1).val = win1_3.index t (1 : Fin 2) * 128 + 1 * (j 1).val; omega
  have h2 : ((cfg1.win 2).blk t).view.emb (ix2 (0 : Fin 1) (j 1)) = ix2 (0 : Fin 1) ((((cfg1.win 3).blk t).view.emb j) 1) := by
    funext a; apply Fin.ext
    match a with
    | ⟨0, _⟩ => show win1_2.index t (0 : Fin 2) * 1 + 1 * 0 = 0; omega
    | ⟨1, _⟩ => show win1_2.index t (1 : Fin 2) * 128 + 1 * (j 1).val = win1_3.index t (1 : Fin 2) * 128 + 1 * (j 1).val; omega
  exact congrArg (fun v => max v 0) (congrArg₂ (· + ·) (congrArg₂ (· + ·) (congrArg A h0) (congrArg S h1)) (congrArg B h2))

/-- An index of the output array is in point t's block iff each coordinate is in the block's range on its axis. -/
theorem mem_block (t : Fin cfg1.N) (i : S50000x128.Idx) :
    i ∈ ((cfg1.win 3).blk t).view.set
      ↔ ∀ a : Fin 2, win1_3.index t a * S5000x128.size a ≤ (i a).val ∧ (i a).val < win1_3.index t a * S5000x128.size a + S5000x128.size a := by
  show i ∈ ((View.whole main_v48).slice (win1_3.rect t)).set ↔ _
  rw [View.set_slice_whole, Rect.mem_set_unit]
  exact Iff.rfl

/-- Every row of the output array lies in the block of the point numbered by its row divided by 5000. -/
theorem covered (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : grid1.N = 10 := N_1
  refine ⟨⟨(i 0).val / 5000, by rw [show cfg1.N = grid1.N from rfl, hN]; omega⟩, flush1_3 _, ?_⟩
  rw [mem_block]
  obtain ⟨e0, e1, e2, e3, e4, e5, e6, e7⟩ := index_facts ⟨(i 0).val / 5000, by rw [show cfg1.N = grid1.N from rfl, hN]; omega⟩
  intro a
  match a with
  | ⟨0, _⟩ =>
    show win1_3.index _ (0 : Fin 2) * 5000 ≤ (i 0).val ∧ (i 0).val < win1_3.index _ (0 : Fin 2) * 5000 + 5000
    rw [e6]; show (i 0).val / 5000 * 5000 ≤ (i 0).val ∧ (i 0).val < (i 0).val / 5000 * 5000 + 5000; omega
  | ⟨1, _⟩ =>
    show win1_3.index _ (1 : Fin 2) * 128 ≤ (i 1).val ∧ (i 1).val < win1_3.index _ (1 : Fin 2) * 128 + 128
    rw [e7]; omega

/-- THE ARRAY THE REGION LEAVES: the two arrays added, plus the bias row, clamped at zero. -/
theorem final (c : Dev nD) :
    (dat1 V c).arrAt 3 cfg1.N = addRowClamp (addf (F := Ideal) (s := S50000x128) (φ := .f32) (V c main_v43) (V c main_v46)) (V c main_v47) :=
  (dat1 V c).arrAt_eq_of_cover 3 (addRowClamp (addf (F := Ideal) (s := S50000x128) (φ := .f32) (V c main_v43) (V c main_v46)) (V c main_v47)) (fun t _ => flushed_eq V c t) (covered)

end Cert.KernelIdeal.Combine1

end
-- ==== Proof.Combine3.lean ====
/-
  Combine region 3: the array it leaves is the sum of the two arrays it reads plus the bias row, clamped at zero.

  The region's ten grid points each take a block of 5000 node rows of the summed messages and of the self-loop term, and
  the one bias row, and store, entry by entry, message + self term + the bias entry of that column, then the larger of that and zero.
  Point t writes back rows 5000·t … 5000·t + 4999, so the ten blocks tile the 50000 rows and the array ends as that
  function of the whole arrays.
-/
import proofs.«172918_j24824910971032_1_alg».proof.Proof.Gen.KernelIdeal.Frame
import proofs.«172918_j24824910971032_1_alg».proof.Proof.LibDenseLayers
import Idealize.ShloMosaic.Lib.Pipeline.Value
import Idealize.ShloMosaic.Lib.ValueIdx
import Idealize.ShloMosaic.Lib.ValueLayout

set_option maxRecDepth 16384

noncomputable section

namespace Cert.KernelIdeal.Combine3

open Idealize.ShloMosaic Idealize.ShloMosaic.TcCoe Idealize.ShloMosaic.ValueIdx Idealize.SL.Sem
open Cert.KernelIdeal Cert.KernelIdeal.Gen Cert.Layers
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- What the body stores: the two loaded blocks added, plus the bias row, clamped at zero. -/
theorem stored_eq (x0 x1 : Vec Ideal S5000x128 .f32) (x2 : Vec Ideal S1x128 .f32) :
    k3_pay1 (F := Ideal) x0 x1 x2 = addRowClamp (addf (F := Ideal) (s := S5000x128) (φ := .f32) x0 x1) x2 := by
  funext j
  obtain ⟨p, q, rfl⟩ : ∃ (p : Fin 5000) (q : Fin 128), j = ix2 p q := ⟨j 0, j 1, eq_ix2 j⟩
  show max (shapeCast S5000x128 x0 shapeCasts_S5000x128_S5000x128 (ix2 p q) + shapeCast S5000x128 x1 shapeCasts_S5000x128_S5000x128 (ix2 p q)
        + broadcastTo S5000x128 (shapeCast S1x128 x2 shapeCasts_S1x128_S1x128) broadcasts_S1x128_S5000x128 (ix2 p q)) (Ideal.ofBits .f32 0x00000000#32)
      = max (x0 (ix2 p q) + x1 (ix2 p q) + x2 (ix2 (0 : Fin 1) q)) 0
  rw [shapeCast_self, shapeCast_self, shapeCast_self, broadcastTo_1b_ab_apply, Ideal.ofBits_zero_f32]

/-- The printed index maps over the grid: the row blocks of the two inputs and of the output are block t, the bias row
    is always its one block, and nothing moves along the columns. -/
theorem index_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- WHAT POINT t WRITES BACK is block t of the combination of the whole arrays. -/
theorem flushed_eq (c : Dev nD) (t : Fin cfg3.N) :
    (dat3 V c).flushed 3 t
      = ((cfg3.win 3).blk t).view.read (Elt Ideal) (addRowClamp (addf (F := Ideal) (s := S50000x128) (φ := .f32) (V c main_v62) (V c main_v65)) (V c main_v66)) := by
  show (cfg3.win 3).cut (grid3.coords t) ((dat3 V c).after 3 t) = _
  rw [after3_3]
  unfold out3_3
  rw [View.canon_unit_zero origin]
  simp only [View.ld_unit_zero (S := S5000x128) origin, View.ld_unit_zero (S := S1x128) origin]
  rw [stored_eq]
  obtain ⟨e0, e1, e2, e3, e4, e5, e6, e7⟩ := index_facts t
  funext j
  let A : S50000x128.Idx → EReal := V c main_v62
  let S : S50000x128.Idx → EReal := V c main_v65
  let B : S1x128.Idx → EReal := V c main_v66
  show max (A (((cfg3.win 0).blk t).view.emb j) + S (((cfg3.win 1).blk t).view.emb j)
        + B (((cfg3.win 2).blk t).view.emb (ix2 (0 : Fin 1) (j 1)))) 0
      = max (A (((cfg3.win 3).blk t).view.emb j) + S (((cfg3.win 3).blk t).view.emb j)
        + B (ix2 (0 : Fin 1) ((((cfg3.win 3).blk t).view.emb j) 1))) 0
  have h0 : ((cfg3.win 0).blk t).view.emb j = ((cfg3.win 3).blk t).view.emb j := by
    funext a; apply Fin.ext
    match a with
    | ⟨0, _⟩ => show win3_0.index t (0 : Fin 2) * 5000 + 1 * (j 0).val = win3_3.index t (0 : Fin 2) * 5000 + 1 * (j 0).val; omega
    | ⟨1, _⟩ => show win3_0.index t (1 : Fin 2) * 128 + 1 * (j 1).val = win3_3.index t (1 : Fin 2) * 128 + 1 * (j 1).val; omega
  have h1 : ((cfg3.win 1).blk t).view.emb j = ((cfg3.win 3).blk t).view.emb j := by
    funext a; apply Fin.ext
    match a with
    | ⟨0, _⟩ => show win3_1.index t (0 : Fin 2) * 5000 + 1 * (j 0).val = win3_3.index t (0 : Fin 2) * 5000 + 1 * (j 0).val; omega
    | ⟨1, _⟩ => show win3_1.index t (1 : Fin 2) * 128 + 1 * (j 1).val = win3_3.index t (1 : Fin 2) * 128 + 1 * (j 1).val; omega
  have h2 : ((cfg3.win 2).blk t).view.emb (ix2 (0 : Fin 1) (j 1)) = ix2 (0 : Fin 1) ((((cfg3.win 3).blk t).view.emb j) 1) := by
    funext a; apply Fin.ext
    match a with
    | ⟨0, _⟩ => show win3_2.index t (0 : Fin 2) * 1 + 1 * 0 = 0; omega
    | ⟨1, _⟩ => show win3_2.index t (1 : Fin 2) * 128 + 1 * (j 1).val = win3_3.index t (1 : Fin 2) * 128 + 1 * (j 1).val; omega
  exact congrArg (fun v => max v 0) (congrArg₂ (· + ·) (congrArg₂ (· + ·) (congrArg A h0) (congrArg S h1)) (congrArg B h2))

/-- An index of the output array is in point t's block iff each coordinate is in the block's range on its axis. -/
theorem mem_block (t : Fin cfg3.N) (i : S50000x128.Idx) :
    i ∈ ((cfg3.win 3).blk t).view.set
      ↔ ∀ a : Fin 2, win3_3.index t a * S5000x128.size a ≤ (i a).val ∧ (i a).val < win3_3.index t a * S5000x128.size a + S5000x128.size a := by
  show i ∈ ((View.whole main_v67).slice (win3_3.rect t)).set ↔ _
  rw [View.set_slice_whole, Rect.mem_set_unit]
  exact Iff.rfl

/-- Every row of the output array lies in the block of the point numbered by its row divided by 5000. -/
theorem covered (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  have hN : grid3.N = 10 := N_3
  refine ⟨⟨(i 0).val / 5000, by rw [show cfg3.N = grid3.N from rfl, hN]; omega⟩, flush3_3 _, ?_⟩
  rw [mem_block]
  obtain ⟨e0, e1, e2, e3, e4, e5, e6, e7⟩ := index_facts ⟨(i 0).val / 5000, by rw [show cfg3.N = grid3.N from rfl, hN]; omega⟩
  intro a
  match a with
  | ⟨0, _⟩ =>
    show win3_3.index _ (0 : Fin 2) * 5000 ≤ (i 0).val ∧ (i 0).val < win3_3.index _ (0 : Fin 2) * 5000 + 5000
    rw [e6]; show (i 0).val / 5000 * 5000 ≤ (i 0).val ∧ (i 0).val < (i 0).val / 5000 * 5000 + 5000; omega
  | ⟨1, _⟩ =>
    show win3_3.index _ (1 : Fin 2) * 128 ≤ (i 1).val ∧ (i 1).val < win3_3.index _ (1 : Fin 2) * 128 + 128
    rw [e7]; omega

/-- THE ARRAY THE REGION LEAVES: the two arrays added, plus the bias row, clamped at zero. -/
theorem final (c : Dev nD) :
    (dat3 V c).arrAt 3 cfg3.N = addRowClamp (addf (F := Ideal) (s := S50000x128) (φ := .f32) (V c main_v62) (V c main_v65)) (V c main_v66) :=
  (dat3 V c).arrAt_eq_of_cover 3 (addRowClamp (addf (F := Ideal) (s := S50000x128) (φ := .f32) (V c main_v62) (V c main_v65)) (V c main_v66)) (fun t _ => flushed_eq V c t) (covered)

end Cert.KernelIdeal.Combine3

end
-- ==== Proof.Combine5.lean ====
/-
  Combine region 5: the array it leaves is the sum of the two arrays it reads plus the bias row.

  The region's ten grid points each take a block of 5000 node rows of the summed messages and of the self-loop term, and
  the one bias row, and store, entry by entry, message + self term + the bias entry of that column.
  Point t writes back rows 5000·t … 5000·t + 4999, so the ten blocks tile the 50000 rows and the array ends as that
  function of the whole arrays.
-/
import proofs.«172918_j24824910971032_1_alg».proof.Proof.Gen.KernelIdeal.Frame
import proofs.«172918_j24824910971032_1_alg».proof.Proof.LibDenseLayers
import Idealize.ShloMosaic.Lib.Pipeline.Value
import Idealize.ShloMosaic.Lib.ValueIdx
import Idealize.ShloMosaic.Lib.ValueLayout

set_option maxRecDepth 16384

noncomputable section

namespace Cert.KernelIdeal.Combine5

open Idealize.ShloMosaic Idealize.ShloMosaic.TcCoe Idealize.ShloMosaic.ValueIdx Idealize.SL.Sem
open Cert.KernelIdeal Cert.KernelIdeal.Gen Cert.Layers
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- What the body stores: the two loaded blocks added, plus the bias row. -/
theorem stored_eq (x0 x1 : Vec Ideal S5000x2 .f32) (x2 : Vec Ideal S1x2 .f32) :
    k5_pay1 (F := Ideal) x0 x1 x2 = addRow (addf (F := Ideal) (s := S5000x2) (φ := .f32) x0 x1) x2 := by
  funext j
  obtain ⟨p, q, rfl⟩ : ∃ (p : Fin 5000) (q : Fin 2), j = ix2 p q := ⟨j 0, j 1, eq_ix2 j⟩
  show shapeCast S5000x2 x0 shapeCasts_S5000x2_S5000x2 (ix2 p q) + shapeCast S5000x2 x1 shapeCasts_S5000x2_S5000x2 (ix2 p q)
        + broadcastTo S5000x2 (shapeCast S1x2 x2 shapeCasts_S1x2_S1x2) broadcasts_S1x2_S5000x2 (ix2 p q)
      = x0 (ix2 p q) + x1 (ix2 p q) + x2 (ix2 (0 : Fin 1) q)
  rw [shapeCast_self, shapeCast_self, shapeCast_self, broadcastTo_1b_ab_apply]

/-- The printed index maps over the grid: the row blocks of the two inputs and of the output are block t, the bias row
    is always its one block, and nothing moves along the columns. -/
theorem index_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- WHAT POINT t WRITES BACK is block t of the combination of the whole arrays. -/
theorem flushed_eq (c : Dev nD) (t : Fin cfg5.N) :
    (dat5 V c).flushed 3 t
      = ((cfg5.win 3).blk t).view.read (Elt Ideal) (addRow (addf (F := Ideal) (s := S50000x2) (φ := .f32) (V c main_v81) (V c main_v84)) (V c main_v85)) := by
  show (cfg5.win 3).cut (grid5.coords t) ((dat5 V c).after 3 t) = _
  rw [after5_3]
  unfold out5_3
  rw [View.canon_unit_zero origin]
  simp only [View.ld_unit_zero (S := S5000x2) origin, View.ld_unit_zero (S := S1x2) origin]
  rw [stored_eq]
  obtain ⟨e0, e1, e2, e3, e4, e5, e6, e7⟩ := index_facts t
  funext j
  let A : S50000x2.Idx → EReal := V c main_v81
  let S : S50000x2.Idx → EReal := V c main_v84
  let B : S1x2.Idx → EReal := V c main_v85
  show A (((cfg5.win 0).blk t).view.emb j) + S (((cfg5.win 1).blk t).view.emb j)
        + B (((cfg5.win 2).blk t).view.emb (ix2 (0 : Fin 1) (j 1)))
      = A (((cfg5.win 3).blk t).view.emb j) + S (((cfg5.win 3).blk t).view.emb j)
        + B (ix2 (0 : Fin 1) ((((cfg5.win 3).blk t).view.emb j) 1))
  have h0 : ((cfg5.win 0).blk t).view.emb j = ((cfg5.win 3).blk t).view.emb j := by
    funext a; apply Fin.ext
    match a with
    | ⟨0, _⟩ => show win5_0.index t (0 : Fin 2) * 5000 + 1 * (j 0).val = win5_3.index t (0 : Fin 2) * 5000 + 1 * (j 0).val; omega
    | ⟨1, _⟩ => show win5_0.index t (1 : Fin 2) * 2 + 1 * (j 1).val = win5_3.index t (1 : Fin 2) * 2 + 1 * (j 1).val; omega
  have h1 : ((cfg5.win 1).blk t).view.emb j = ((cfg5.win 3).blk t).view.emb j := by
    funext a; apply Fin.ext
    match a with
    | ⟨0, _⟩ => show win5_1.index t (0 : Fin 2) * 5000 + 1 * (j 0).val = win5_3.index t (0 : Fin 2) * 5000 + 1 * (j 0).val; omega
    | ⟨1, _⟩ => show win5_1.index t (1 : Fin 2) * 2 + 1 * (j 1).val = win5_3.index t (1 : Fin 2) * 2 + 1 * (j 1).val; omega
  have h2 : ((cfg5.win 2).blk t).view.emb (ix2 (0 : Fin 1) (j 1)) = ix2 (0 : Fin 1) ((((cfg5.win 3).blk t).view.emb j) 1) := by
    funext a; apply Fin.ext
    match a with
    | ⟨0, _⟩ => show win5_2.index t (0 : Fin 2) * 1 + 1 * 0 = 0; omega
    | ⟨1, _⟩ => show win5_2.index t (1 : Fin 2) * 2 + 1 * (j 1).val = win5_3.index t (1 : Fin 2) * 2 + 1 * (j 1).val; omega
  exact congrArg₂ (· + ·) (congrArg₂ (· + ·) (congrArg A h0) (congrArg S h1)) (congrArg B h2)

/-- An index of the output array is in point t's block iff each coordinate is in the block's range on its axis. -/
theorem mem_block (t : Fin cfg5.N) (i : S50000x2.Idx) :
    i ∈ ((cfg5.win 3).blk t).view.set
      ↔ ∀ a : Fin 2, win5_3.index t a * S5000x2.size a ≤ (i a).val ∧ (i a).val < win5_3.index t a * S5000x2.size a + S5000x2.size a := by
  show i ∈ ((View.whole main_v86).slice (win5_3.rect t)).set ↔ _
  rw [View.set_slice_whole, Rect.mem_set_unit]
  exact Iff.rfl

/-- Every row of the output array lies in the block of the point numbered by its row divided by 5000. -/
theorem covered (i : S50000x2.Idx) :
    ∃ t : Fin cfg5.N, (cfg5.win 3).flush t = true ∧ i ∈ ((cfg5.win 3).blk t).view.set := by
  have hi0 : (i 0).val < 50000 := (i 0).isLt
  have hi1 : (i 1).val < 2 := (i 1).isLt
  have hN : grid5.N = 10 := N_5
  refine ⟨⟨(i 0).val / 5000, by rw [show cfg5.N = grid5.N from rfl, hN]; omega⟩, flush5_3 _, ?_⟩
  rw [mem_block]
  obtain ⟨e0, e1, e2, e3, e4, e5, e6, e7⟩ := index_facts ⟨(i 0).val / 5000, by rw [show cfg5.N = grid5.N from rfl, hN]; omega⟩
  intro a
  match a with
  | ⟨0, _⟩ =>
    show win5_3.index _ (0 : Fin 2) * 5000 ≤ (i 0).val ∧ (i 0).val < win5_3.index _ (0 : Fin 2) * 5000 + 5000
    rw [e6]; show (i 0).val / 5000 * 5000 ≤ (i 0).val ∧ (i 0).val < (i 0).val / 5000 * 5000 + 5000; omega
  | ⟨1, _⟩ =>
    show win5_3.index _ (1 : Fin 2) * 2 ≤ (i 1).val ∧ (i 1).val < win5_3.index _ (1 : Fin 2) * 2 + 2
    rw [e7]; omega

/-- THE ARRAY THE REGION LEAVES: the two arrays added, plus the bias row. -/
theorem final (c : Dev nD) :
    (dat5 V c).arrAt 3 cfg5.N = addRow (addf (F := Ideal) (s := S50000x2) (φ := .f32) (V c main_v81) (V c main_v84)) (V c main_v85) :=
  (dat5 V c).arrAt_eq_of_cover 3 (addRow (addf (F := Ideal) (s := S50000x2) (φ := .f32) (V c main_v81) (V c main_v84)) (V c main_v85)) (fun t _ => flushed_eq V c t) (covered)

end Cert.KernelIdeal.Combine5

end
-- ==== Proof.Stages.lean ====
/-
  The idealized kernel's buffers, boundary by boundary, and the array it returns.

  The four edge arrays and the argument arrays are written by no region and by no later stretch of host operations, so
  what they hold when the first region is entered they hold at every later boundary.

  Then three layers.  In each, the projection region leaves the product of the layer's input and its weight matrix; the
  stretch of host operations that follows forms from that product the summed messages and the self-loop term and casts the
  bias vector to a row; the combine region leaves messages + self term + bias row, clamped at zero in the first two
  layers.  Substituting each boundary's arrays into the next gives the network's first hidden array, its second, and its
  output: the result buffer ends holding the network's output of the argument arrays.
-/
import proofs.«172918_j24824910971032_1_alg».proof.Proof.EdgeArrays
import proofs.«172918_j24824910971032_1_alg».proof.Proof.Stretches
import proofs.«172918_j24824910971032_1_alg».proof.Proof.Project0
import proofs.«172918_j24824910971032_1_alg».proof.Proof.Project2
import proofs.«172918_j24824910971032_1_alg».proof.Proof.Project4
import proofs.«172918_j24824910971032_1_alg».proof.Proof.Combine1
import proofs.«172918_j24824910971032_1_alg».proof.Proof.Combine3
import proofs.«172918_j24824910971032_1_alg».proof.Proof.Combine5

set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo
open Cert.ReferenceIdeal.Read Cert.GraphMix Cert.Network Cert.Layers
open Cert.KernelIdeal.EdgeArrays Cert.KernelIdeal.Stretches

variable (m : (ℓ : Loc nD τ sig) → Buf (Elt Ideal) ℓ) (ρ : Dev nD → PrngReg)

/-- The four edge arrays held in the contents `W` are the reference's stages of the edge list `e` and the edge weights `a`. -/
def EdgesAt (W : Valuation τ sig (Elt Ideal)) (e : (⟨Cert.ReferenceIdeal.S2x800000, .i32⟩ : BufTy).Contents (Elt Ideal))
    (a : (⟨Cert.ReferenceIdeal.S800000, .f32⟩ : BufTy).Contents (Elt Ideal)) : Prop :=
  W (Proc.devRef .tc main_v1) = val_main_v1 (F := Ideal) e ∧ W (Proc.devRef .tc main_v3) = val_main_v3 (F := Ideal) e
    ∧ W (Proc.devRef .tc main_v28) = val_main_v28 (F := Ideal) e a ∧ W (Proc.devRef .tc main_v29) = val_main_v29 (F := Ideal) e a

/-! ## The edge arrays and the arguments, carried along -/

theorem edges3 (c : Dev nD) : EdgesAt (W3 m ρ c) (m ((c : Thread nD τ).loc main_arg1)) (m ((c : Thread nD τ).loc main_arg2)) :=
  ⟨(ends3 m ρ c).1, (ends3 m ρ c).2, weights3 m ρ c, selfs3 m ρ c⟩

/-- The first projection region writes none of them. -/
theorem edges4 (c : Dev nD) : EdgesAt (W4 m ρ c) (m ((c : Thread nD τ).loc main_arg1)) (m ((c : Thread nD τ).loc main_arg2)) := by
  obtain ⟨h1, h2, h3, h4⟩ := edges3 m ρ c
  exact ⟨(W4_of_ne m ρ c main_v1 (by decide)).trans h1, (W4_of_ne m ρ c main_v3 (by decide)).trans h2,
    (W4_of_ne m ρ c main_v28 (by decide)).trans h3, (W4_of_ne m ρ c main_v29 (by decide)).trans h4⟩

/-- Nor do the first layer's stretch, its combine region and the second projection region. -/
theorem edges7 (c : Dev nD) : EdgesAt (W7 m ρ c) (m ((c : Thread nD τ).loc main_arg1)) (m ((c : Thread nD τ).loc main_arg2)) := by
  obtain ⟨h1, h2, h3, h4⟩ := edges4 m ρ c
  obtain ⟨k1, k2, k3, k4, -⟩ := stretch1_keeps (W4 m ρ c)
  exact ⟨(W7_of_ne m ρ c main_v1 (by decide)).trans ((W6_of_ne m ρ c main_v1 (by decide)).trans (k1.trans h1)),
    (W7_of_ne m ρ c main_v3 (by decide)).trans ((W6_of_ne m ρ c main_v3 (by decide)).trans (k2.trans h2)),
    (W7_of_ne m ρ c main_v28 (by decide)).trans ((W6_of_ne m ρ c main_v28 (by decide)).trans (k3.trans h3)),
    (W7_of_ne m ρ c main_v29 (by decide)).trans ((W6_of_ne m ρ c main_v29 (by decide)).trans (k4.trans h4))⟩

/-- Nor do the second layer's stretch, its combine region and the last projection region. -/
theorem edges10 (c : Dev nD) : EdgesAt (W10 m ρ c) (m ((c : Thread nD τ).loc main_arg1)) (m ((c : Thread nD τ).loc main_arg2)) := by
  obtain ⟨h1, h2, h3, h4⟩ := edges7 m ρ c
  obtain ⟨k1, k2, k3, k4, -⟩ := stretch3_keeps (W7 m ρ c)
  exact ⟨(W10_of_ne m ρ c main_v1 (by decide)).trans ((W9_of_ne m ρ c main_v1 (by decide)).trans (k1.trans h1)),
    (W10_of_ne m ρ c main_v3 (by decide)).trans ((W9_of_ne m ρ c main_v3 (by decide)).trans (k2.trans h2)),
    (W10_of_ne m ρ c main_v28 (by decide)).trans ((W9_of_ne m ρ c main_v28 (by decide)).trans (k3.trans h3)),
    (W10_of_ne m ρ c main_v29 (by decide)).trans ((W9_of_ne m ρ c main_v29 (by decide)).trans (k4.trans h4))⟩

/-- The first bias vector when the first layer's stretch reads it. -/
theorem bias0_at4 (c : Dev nD) : W4 m ρ c (Proc.devRef .tc main_arg4) = (m ((c : Thread nD τ).loc main_arg4)) := by
  obtain ⟨-, -, g4, -⟩ := args3 m ρ c
  exact (W4_of_ne m ρ c main_arg4 (by decide)).trans g4

/-- The second weight matrix when the second projection region reads it. -/
theorem weight1_at6 (c : Dev nD) : W6 m ρ c (Proc.devRef .tc main_arg5) = (m ((c : Thread nD τ).loc main_arg5)) := by
  obtain ⟨-, -, -, g5, -⟩ := args3 m ρ c
  obtain ⟨-, -, -, -, k5, -⟩ := stretch1_keeps (W4 m ρ c)
  exact (W6_of_ne m ρ c main_arg5 (by decide)).trans (k5.trans ((W4_of_ne m ρ c main_arg5 (by decide)).trans g5))

/-- The second bias vector when the second layer's stretch reads it. -/
theorem bias1_at7 (c : Dev nD) : W7 m ρ c (Proc.devRef .tc main_arg6) = (m ((c : Thread nD τ).loc main_arg6)) := by
  obtain ⟨-, -, -, -, g6, -⟩ := args3 m ρ c
  obtain ⟨-, -, -, -, -, k6, -⟩ := stretch1_keeps (W4 m ρ c)
  exact (W7_of_ne m ρ c main_arg6 (by decide)).trans ((W6_of_ne m ρ c main_arg6 (by decide)).trans
    (k6.trans ((W4_of_ne m ρ c main_arg6 (by decide)).trans g6)))

/-- The last weight matrix when the second layer's stretch is entered. -/
theorem weight2_at7 (c : Dev nD) : W7 m ρ c (Proc.devRef .tc main_arg7) = (m ((c : Thread nD τ).loc main_arg7)) := by
  obtain ⟨-, -, -, -, -, g7, -⟩ := args3 m ρ c
  obtain ⟨-, -, -, -, -, -, k7, -⟩ := stretch1_keeps (W4 m ρ c)
  exact (W7_of_ne m ρ c main_arg7 (by decide)).trans ((W6_of_ne m ρ c main_arg7 (by decide)).trans
    (k7.trans ((W4_of_ne m ρ c main_arg7 (by decide)).trans g7)))

/-- The last bias vector when the second layer's stretch is entered. -/
theorem bias2_at7 (c : Dev nD) : W7 m ρ c (Proc.devRef .tc main_arg8) = (m ((c : Thread nD τ).loc main_arg8)) := by
  obtain ⟨-, -, -, -, -, -, g8⟩ := args3 m ρ c
  obtain ⟨-, -, -, -, -, -, -, k8⟩ := stretch1_keeps (W4 m ρ c)
  exact (W7_of_ne m ρ c main_arg8 (by decide)).trans ((W6_of_ne m ρ c main_arg8 (by decide)).trans
    (k8.trans ((W4_of_ne m ρ c main_arg8 (by decide)).trans g8)))

/-- The last weight matrix when the last projection region reads it. -/
theorem weight2_at9 (c : Dev nD) : W9 m ρ c (Proc.devRef .tc main_arg7) = (m ((c : Thread nD τ).loc main_arg7)) := by
  obtain ⟨-, -, -, -, k7, -⟩ := stretch3_keeps (W7 m ρ c)
  exact (W9_of_ne m ρ c main_arg7 (by decide)).trans (k7.trans (weight2_at7 m ρ c))

/-- The last bias vector when the last layer's stretch reads it. -/
theorem bias2_at10 (c : Dev nD) : W10 m ρ c (Proc.devRef .tc main_arg8) = (m ((c : Thread nD τ).loc main_arg8)) := by
  obtain ⟨-, -, -, -, -, k8⟩ := stretch3_keeps (W7 m ρ c)
  exact (W10_of_ne m ρ c main_arg8 (by decide)).trans ((W9_of_ne m ρ c main_arg8 (by decide)).trans (k8.trans (bias2_at7 m ρ c)))

/-! ## The three layers -/

/-- The first projection region leaves the node features times the first weight matrix. -/
theorem projected1 (c : Dev nD) : W4 m ρ c (Proc.devRef .tc main_v30) = project (m ((c : Thread nD τ).loc main_arg0)) (m ((c : Thread nD τ).loc main_arg3)) := by
  obtain ⟨g0, g3, -⟩ := args3 m ρ c
  refine (W4_arr m ρ c 2).trans ((Project0.final (V3 m ρ) c).trans ?_)
  show project (M := 50000) (K := 128) (N := 128) (W3 m ρ c (Proc.devRef .tc main_arg0)) (W3 m ρ c (Proc.devRef .tc main_arg3)) = _
  rw [g0, g3]

/-- The first combine region leaves the network's first hidden array. -/
theorem layer1 (c : Dev nD) : W6 m ρ c (Proc.devRef .tc main_v48) = hidden1 (m ((c : Thread nD τ).loc main_arg0)) (m ((c : Thread nD τ).loc main_arg1)) (m ((c : Thread nD τ).loc main_arg2)) (m ((c : Thread nD τ).loc main_arg3)) (m ((c : Thread nD τ).loc main_arg4)) := by
  obtain ⟨e1, e3, e28, e29⟩ := edges4 m ρ c
  obtain ⟨s43, s46, s47⟩ := stretch1 (W4 m ρ c)
  refine (W6_arr m ρ c 3).trans ((Combine1.final (V5 m ρ) c).trans ?_)
  show addRowClamp (M := 50000) (N := 128) (addf (F := Ideal) (s := S50000x128) (φ := .f32)
      (StableHlo.after hostOps1 (W4 m ρ c) (Proc.devRef .tc main_v43)) (StableHlo.after hostOps1 (W4 m ρ c) (Proc.devRef .tc main_v46)))
      (StableHlo.after hostOps1 (W4 m ρ c) (Proc.devRef .tc main_v47)) = _
  rw [s43, s46, s47, e1, e3, e28, e29, projected1 m ρ c, bias0_at4 m ρ c]
  rfl

/-- The second projection region leaves the first hidden array times the second weight matrix. -/
theorem projected2 (c : Dev nD) : W7 m ρ c (Proc.devRef .tc main_v49) = project (hidden1 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) := by
  refine (W7_arr m ρ c 2).trans ((Project2.final (V6 m ρ) c).trans ?_)
  show project (M := 50000) (K := 128) (N := 128) (W6 m ρ c (Proc.devRef .tc main_v48)) (W6 m ρ c (Proc.devRef .tc main_arg5)) = _
  rw [layer1 m ρ c, weight1_at6 m ρ c]

/-- The second combine region leaves the network's second hidden array. -/
theorem layer2 (c : Dev nD) : W9 m ρ c (Proc.devRef .tc main_v67) = hidden2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  obtain ⟨e1, e3, e28, e29⟩ := edges7 m ρ c
  obtain ⟨s62, s65, s66⟩ := stretch3 (W7 m ρ c)
  refine (W9_arr m ρ c 3).trans ((Combine3.final (V8 m ρ) c).trans ?_)
  show addRowClamp (M := 50000) (N := 128) (addf (F := Ideal) (s := S50000x128) (φ := .f32)
      (StableHlo.after hostOps3 (W7 m ρ c) (Proc.devRef .tc main_v62)) (StableHlo.after hostOps3 (W7 m ρ c) (Proc.devRef .tc main_v65)))
      (StableHlo.after hostOps3 (W7 m ρ c) (Proc.devRef .tc main_v66)) = _
  rw [s62, s65, s66, e1, e3, e28, e29, projected2 m ρ c, bias1_at7 m ρ c]
  rfl

/-- The last projection region leaves the second hidden array times the last weight matrix. -/
theorem projected3 (c : Dev nD) : W10 m ρ c (Proc.devRef .tc main_v68) = project (hidden2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg7)) := by
  refine (W10_arr m ρ c 2).trans ((Project4.final (V9 m ρ) c).trans ?_)
  show project (M := 50000) (K := 128) (N := 2) (W9 m ρ c (Proc.devRef .tc main_v67)) (W9 m ρ c (Proc.devRef .tc main_arg7)) = _
  rw [layer2 m ρ c, weight2_at9 m ρ c]

/-- THE RESULT BUFFER ends holding the network's output of the argument arrays. -/
theorem result (c : Dev nD) : W12 m ρ c (Proc.devRef .tc main_v86) = output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  obtain ⟨e1, e3, e28, e29⟩ := edges10 m ρ c
  obtain ⟨s81, s84, s85⟩ := stretch5 (W10 m ρ c)
  refine (W12_arr m ρ c 3).trans ((Combine5.final (V11 m ρ) c).trans ?_)
  show addRow (M := 50000) (N := 2) (addf (F := Ideal) (s := S50000x2) (φ := .f32)
      (StableHlo.after hostOps5 (W10 m ρ c) (Proc.devRef .tc main_v81)) (StableHlo.after hostOps5 (W10 m ρ c) (Proc.devRef .tc main_v84)))
      (StableHlo.after hostOps5 (W10 m ρ c) (Proc.devRef .tc main_v85)) = _
  rw [s81, s84, s85, e1, e3, e28, e29, projected3 m ρ c, bias2_at10 m ρ c]
  rfl

end Cert.KernelIdeal.Stages

end
-- ==== Proof.lean ====
/-
  A three-layer graph-convolution network over 50000 nodes and 800000 weighted edges, computed two ways.

  Both programs first compute, from the edge list and the edge weights, each node's degree (its incoming weight plus 1 for a
  self-loop), the reciprocal square root of the degree where it is positive and 0 elsewhere, each edge's normalised weight
  (the product of its weight with that number at its two ends) and each node's self-loop coefficient (that number
  squared).  Each layer then projects the node features by its weight matrix, sends every projected row along the edges —
  the row of an edge's source node, scaled by the edge's normalised weight, is added at the edge's destination node —,
  adds each node's own projected row scaled by its self-loop coefficient, adds the layer's bias to every row and, in the
  first two layers, clamps at zero.

  The reference does all of this with whole-array host operations.  The kernel keeps the host operations for the degree
  terms and for sending rows along the edges, and computes each layer's matrix product and each layer's closing
  elementwise step (messages + self term + bias, clamped or not) in a region of its own, ten blocks of 5000 node rows at a
  time; its matrix products first convert their operands to a narrower float format.

  Over the extended reals the two computations are the same function.  A change of float format is the identity there; a
  block of rows times the whole weight matrix is the corresponding block of the whole product, the same sum over the same
  128 terms in the same order, started from an accumulator that is 0; the ten blocks tile the 50000 rows; the closing step
  adds the same three numbers in the same order and takes the same maximum with 0; and everything in between is the same
  host operations applied to arrays already shown equal.  No law of arithmetic beyond 0 + s = s is used, so nothing is
  asked of the inputs: the finiteness the precondition states is never opened.

  `Network` names the function (and reads the reference as it), `Project0/2/4` and `Combine1/3/5` read what each region
  leaves, `EdgeArrays` and `Stretches` read the host operations between them, `Stages` composes the boundaries, and
  `ResultRun` is the kernel's run with its result buffer named.
-/
import proofs.«172918_j24824910971032_1_alg».proof.Defs
import proofs.«172918_j24824910971032_1_alg».proof.Proof.Gen.Kernel
import proofs.«172918_j24824910971032_1_alg».proof.Proof.Gen.Kernel.Skeleton
import proofs.«172918_j24824910971032_1_alg».proof.Proof.Gen.Kernel.Launch
import proofs.«172918_j24824910971032_1_alg».proof.Proof.Gen.Kernel.Points
import proofs.«172918_j24824910971032_1_alg».proof.Proof.Gen.Kernel.Frame
import proofs.«172918_j24824910971032_1_alg».proof.Proof.Gen.KernelIdeal
import proofs.«172918_j24824910971032_1_alg».proof.Proof.Gen.KernelIdeal.Skeleton
import proofs.«172918_j24824910971032_1_alg».proof.Proof.Gen.KernelIdeal.Launch
import proofs.«172918_j24824910971032_1_alg».proof.Proof.Gen.KernelIdeal.Points
import proofs.«172918_j24824910971032_1_alg».proof.Proof.Gen.KernelIdeal.Frame
import proofs.«172918_j24824910971032_1_alg».proof.Proof.Gen.ReferenceIdeal
import proofs.«172918_j24824910971032_1_alg».proof.Proof.Gen.ReferenceIdeal.Run
import proofs.«172918_j24824910971032_1_alg».proof.Proof.Gen.ReferenceIdeal.Read
import proofs.«172918_j24824910971032_1_alg».proof.Proof.Gen.Pre_finite_inputs
import proofs.«172918_j24824910971032_1_alg».proof.Proof.Network
import proofs.«172918_j24824910971032_1_alg».proof.Proof.ResultRun
import proofs.«172918_j24824910971032_1_alg».proof.Proof.Stages
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the network's output of the arguments: the kernel by
    its run and the boundary-by-boundary reading of its buffers, the reference by its run read as the network. -/
theorem algebraic : Cert.algebraic_KernelIdeal_ReferenceIdeal := by
  intro m ρ m' ρ' _ hagree
  refine ⟨fun c => Cert.Network.output (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Stages.result m ρ c), (h c).2⟩)
      (Cert.KernelIdeal.Result.run (F := Ideal) m ρ)
  · refine (θ_run Cert.ReferenceIdeal.defs _ _).mono (fun r h c => ⟨(h c).1.trans ?_, (h c).2⟩)
      (Cert.ReferenceIdeal.Value.run (F := Ideal) m' ρ')
    obtain ⟨g0, g1, g2, g3, g4, g5, g6, g7, g8⟩ := hagree c
    rw [Cert.ReferenceIdeal.Read.val_main_v94_eq, Cert.Network.ref_output, g0, g1, g2, g3, g4, g5, g6, g7, g8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
